-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_

variable [Facts]

def fn_part1 {F : FTy → Type} [FloatOps F] (main_arg4 : FVec F S11008x16 .f32) (main_arg5 : FVec F S11008 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S11008x16 .f32 := Host.absf main_arg4
  let main_cst_6 : FVec F S_ .f32 := constant S_ .f32 0x7F800000#32
  let main_v20 : FVec F S11008x16 .f32 := broadcastInDim S11008x16 ![] bcast_S_S11008x16 main_cst_6
  let main_v21 : IVec S11008x16 1 := cmpf .olt main_v19 main_v20
  let main_c_7 : IVec S_ 1 := constantI S_ 1 1#1
  let main_v22 : IVec S_ 1 := (fun x v => Host.reduce IntOp.andi x v reducesTo_S11008x16_S_d0_1 h_S_) main_v21 main_c_7
  let main_v23 : IVec S_ 1 := andi main_v18 main_v22
  let main_v24 : FVec F S11008 .f32 := Host.absf main_arg5
  let main_cst_8 : FVec F S_ .f32 := constant S_ .f32 0x7F800000#32
  let main_v25 : FVec F S11008 .f32 := broadcastInDim S11008 ![] bcast_S_S11008 main_cst_8
  let main_v26 : IVec S11008 1 := cmpf .olt main_v24 main_v25
  let main_c_9 : IVec S_ 1 := constantI S_ 1 1#1
  let main_v27 : IVec S_ 1 := (fun x v => Host.reduce IntOp.andi x v reducesTo_S11008_S_d0 h_S_) main_v26 main_c_9
  let main_v28 : IVec S_ 1 := andi main_v23 main_v27
  main_v28

def fn {F : FTy → Type} [FloatOps F] (main_arg0 : FVec F S64x4096 .f32) (main_arg1 : FVec F S11008x4096 .f32) (main_arg2 : FVec F S11008 .f32) (main_arg3 : FVec F S16x4096 .f32) (main_arg4 : FVec F S11008x16 .f32) (main_arg5 : FVec F S11008 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_v13 main_v16
-- ==== Kernel.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S4096x16 : Shape := ⟨2, ![4096, 16]⟩
abbrev S64x16 : Shape := ⟨2, ![64, 16]⟩
abbrev S1x11008 : Shape := ⟨2, ![1, 11008]⟩
abbrev S64x11008 : Shape := ⟨2, ![64, 11008]⟩
abbrev S512x4096 : Shape := ⟨2, ![512, 4096]⟩
abbrev S1x512 : Shape := ⟨2, ![1, 512]⟩
abbrev S512x16 : Shape := ⟨2, ![512, 16]⟩
abbrev S64x512 : Shape := ⟨2, ![64, 512]⟩

abbrev nBuf : Space → Nat
  | .hbm => 13
  | .vmem => 12
  | .smem => 0
  | _ => 0

abbrev bufTy : (tb : Table) → Fin (tcTables nBuf tb) → BufTy
  | .hbm, ⟨0, _⟩ => ⟨S64x4096, .f32⟩
  | .hbm, ⟨1, _⟩ => ⟨S11008x4096, .f32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S11008, .f32⟩
  | .hbm, ⟨6, _⟩ => ⟨S64x4096, .bf16⟩
  | .hbm, ⟨7, _⟩ => ⟨S4096x16, .f32⟩
  | .hbm, ⟨8, _⟩ => ⟨S64x16, .f32⟩
  | .hbm, ⟨9, _⟩ => ⟨S64x16, .bf16⟩
  | .hbm, ⟨10, _⟩ => ⟨S1x11008, .f32⟩
  | .hbm, ⟨11, _⟩ => ⟨S1x11008, .f32⟩
  | .hbm, ⟨12, _⟩ => ⟨S64x11008, .f32⟩
  | .local _ .vmem, ⟨0, _⟩ => ⟨S64x4096, .bf16⟩
  | .local _ .vmem, ⟨1, _⟩ => ⟨S64x16, .bf16⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S512x16, .f32⟩
  | .local _ .vmem, ⟨7, _⟩ => ⟨S512x16, .f32⟩
  | .local _ .vmem, ⟨8, _⟩ => ⟨S1x512, .f32⟩
  | .local _ .vmem, ⟨9, _⟩ => ⟨S1x512, .f32⟩
  | .local _ .vmem, ⟨10, _⟩ => ⟨S64x512, .f32⟩
  | .local _ .vmem, ⟨11, _⟩ => ⟨S64x512, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  transposes_S16x4096_S4096x16_1_0 : S16x4096.Transposes [1, 0] S4096x16
  shapeCasts_S11008_S1x11008 : S11008.ShapeCasts S1x11008
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S512x4096_S512x4096_0_0 : ∀ a, (![0, 0] : Fin 2 → Nat) a + S512x4096.size a ≤ S512x4096.size a
  h_S512x4096 : 0 < S512x4096.numel
  inb_S512x16_S512x16_0_0 : ∀ a, (![0, 0] : Fin 2 → Nat) a + S512x16.size a ≤ S512x16.size a
  h_S512x16 : 0 < S512x16.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  dot_S64x4096_S4096x16_S64x16_1_0_0_1_n_n_wf : DotDims.WF S64x4096 S4096x16 S64x16 [1] [0] [0] [1] [] []
  dot_S64x4096_S512x4096_S64x512_1_1_0_0_n_n_wf : DotDims.WF S64x4096 S512x4096 S64x512 [1] [1] [0] [0] [] []
  dot_S64x16_S512x16_S64x512_1_1_0_0_n_n_wf : DotDims.WF S64x16 S512x16 S64x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .bf16 = 32 ∨ (Rect.block (s := S64x16) S64x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x4096.size a < S11008x4096.size a
  hwx0_2 : ∀ i : grid0.Coords, EltTy.bits .f32 = 32 ∨ (Rect.unit (s := S11008x4096) (fun a => cc0_transform_2 i a * S512x4096.size a) (fun a => (Pipeline.Clip.of (cc0_transform_2 i a) (S512x4096.size a) (S11008x4096.size a)).extent (S512x4096.size a)) fun a => Pipeline.Clip.inb (Pipeline.Clip.ok_of (hstart0_2 i a))).WholeWords (EltTy.packing .f32)
  hwxs0_2 : ∀ i : grid0.Coords, EltTy.bits .f32 = 32 ∨ (Rect.unit (s := S512x4096) (fun _ => 0) (fun a => (Pipeline.Clip.of (cc0_transform_2 i a) (S512x4096.size a) (S11008x4096.size a)).extent (S512x4096.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x512.size a < S1x11008.size a
  hwx0_3 : ∀ i : grid0.Coords, EltTy.bits .f32 = 32 ∨ (Rect.unit (s := S1x11008) (fun a => cc0_transform_3 i a * S1x512.size a) (fun a => (Pipeline.Clip.of (cc0_transform_3 i a) (S1x512.size a) (S1x11008.size a)).extent (S1x512.size a)) fun a => Pipeline.Clip.inb (Pipeline.Clip.ok_of (hstart0_3 i a))).WholeWords (EltTy.packing .f32)
  hwxs0_3 : ∀ i : grid0.Coords, EltTy.bits .f32 = 32 ∨ (Rect.unit (s := S1x512) (fun _ => 0) (fun a => (Pipeline.Clip.of (cc0_transform_3 i a) (S1x512.size a) (S1x11008.size a)).extent (S1x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x16.size a < S11008x16.size a
  hwx0_4 : ∀ i : grid0.Coords, EltTy.bits .f32 = 32 ∨ (Rect.unit (s := S11008x16) (fun a => cc0_transform_4 i a * S512x16.size a) (fun a => (Pipeline.Clip.of (cc0_transform_4 i a) (S512x16.size a) (S11008x16.size a)).extent (S512x16.size a)) fun a => Pipeline.Clip.inb (Pipeline.Clip.ok_of (hstart0_4 i a))).WholeWords (EltTy.packing .f32)
  hwxs0_4 : ∀ i : grid0.Coords, EltTy.bits .f32 = 32 ∨ (Rect.unit (s := S512x16) (fun _ => 0) (fun a => (Pipeline.Clip.of (cc0_transform_4 i a) (S512x16.size a) (S11008x16.size a)).extent (S512x16.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x512.size a < S1x11008.size a
  hwx0_5 : ∀ i : grid0.Coords, EltTy.bits .f32 = 32 ∨ (Rect.unit (s := S1x11008) (fun a => cc0_transform_5 i a * S1x512.size a) (fun a => (Pipeline.Clip.of (cc0_transform_5 i a) (S1x512.size a) (S1x11008.size a)).extent (S1x512.size a)) fun a => Pipeline.Clip.inb (Pipeline.Clip.ok_of (hstart0_5 i a))).WholeWords (EltTy.packing .f32)
  hwxs0_5 : ∀ i : grid0.Coords, EltTy.bits .f32 = 32 ∨ (Rect.unit (s := S1x512) (fun _ => 0) (fun a => (Pipeline.Clip.of (cc0_transform_5 i a) (S1x512.size a) (S1x11008.size a)).extent (S1x512.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S64x512.size a < S64x11008.size a
  hwx0_6 : ∀ i : grid0.Coords, EltTy.bits .f32 = 32 ∨ (Rect.unit (s := S64x11008) (fun a => cc0_transform_6 i a * S64x512.size a) (fun a => (Pipeline.Clip.of (cc0_transform_6 i a) (S64x512.size a) (S64x11008.size a)).extent (S64x512.size a)) fun a => Pipeline.Clip.inb (Pipeline.Clip.ok_of (hstart0_6 i a))).WholeWords (EltTy.packing .f32)
  hwxs0_6 : ∀ i : grid0.Coords, EltTy.bits .f32 = 32 ∨ (Rect.unit (s := S64x512) (fun _ => 0) (fun a => (Pipeline.Clip.of (cc0_transform_6 i a) (S64x512.size a) (S64x11008.size a)).extent (S64x512.size a)) fun a => (Nat.zero_add _).trans_le (Pipeline.Clip.extent_le (Pipeline.Clip.ok_of (hstart0_6 i a)))).WholeWords (EltTy.packing .f32)

variable [Facts₀]

def dot_S64x4096_S4096x16_S64x16_1_0_0_1_n_n : DotDims S64x4096 S4096x16 S64x16 where
  lhsContracting := [1]
  rhsContracting := [0]
  lhsNonContracting := [0]
  rhsNonContracting := [1]
  lhsBatch := []
  rhsBatch := []
  wf := dot_S64x4096_S4096x16_S64x16_1_0_0_1_n_n_wf
def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf
def dot_S64x16_S512x16_S64x512_1_1_0_0_n_n : DotDims S64x16 S512x16 S64x512 where
  lhsContracting := [1]
  rhsContracting := [1]
  lhsNonContracting := [0]
  rhsNonContracting := [0]
  lhsBatch := []
  rhsBatch := []
  wf := dot_S64x16_S512x16_S64x512_1_1_0_0_n_n_wf

abbrev win0_0 : Pipeline.Window sig grid0 :=
  Pipeline.Window.ofSpec (Memref.whole main_v0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S512x4096.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v4) S1x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg4) S512x16.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v5) S1x512.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v6) S64x512.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S11008x1 : Shape := ⟨2, ![11008, 1]⟩
abbrev S_ : Shape := ⟨0, ![]⟩
abbrev S4096x11008 : Shape := ⟨2, ![4096, 11008]⟩
abbrev S64x11008 : Shape := ⟨2, ![64, 11008]⟩
abbrev S1x11008 : Shape := ⟨2, ![1, 11008]⟩

abbrev nBuf : Space → Nat
  | .hbm => 19
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S11008x4096, .f32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S11008, .f32⟩
  | .hbm, ⟨6, _⟩ => ⟨S11008x1, .f32⟩
  | .hbm, ⟨7, _⟩ => ⟨S11008x4096, .f32⟩
  | .hbm, ⟨8, _⟩ => ⟨S11008x4096, .f32⟩
  | .hbm, ⟨9, _⟩ => ⟨S11008x4096, .f32⟩
  | .hbm, ⟨10, _⟩ => ⟨S_, .f32⟩
  | .hbm, ⟨11, _⟩ => ⟨S11008x4096, .f32⟩
  | .hbm, ⟨12, _⟩ => ⟨S11008x4096, .f32⟩
  | .hbm, ⟨13, _⟩ => ⟨S11008x4096, .f32⟩
  | .hbm, ⟨14, _⟩ => ⟨S4096x11008, .f32⟩
  | .hbm, ⟨15, _⟩ => ⟨S64x11008, .f32⟩
  | .hbm, ⟨16, _⟩ => ⟨S1x11008, .f32⟩
  | .hbm, ⟨17, _⟩ => ⟨S64x11008, .f32⟩
  | .hbm, ⟨18, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S_S11008x4096 : S_.BroadcastsInDim S11008x4096 (![] : Fin 0 → Fin S11008x4096.rank)
  transposes_S11008x4096_S4096x11008_1_0 : S11008x4096.Transposes [1, 0] S4096x11008
  bcast_S11008_S1x11008_1 : S11008.BroadcastsInDim S1x11008 (![1] : Fin 1 → Fin S1x11008.rank)
  bcast_S1x11008_S64x11008_0_1 : S1x11008.BroadcastsInDim S64x11008 (![0, 1] : Fin 2 → Fin S64x11008.rank)
  dot_S11008x16_S16x4096_S11008x4096_1_0_0_1_n_n_wf : DotDims.WF S11008x16 S16x4096 S11008x4096 [1] [0] [0] [1] [] []
  dot_S64x4096_S4096x11008_S64x11008_1_0_0_1_n_n_wf : DotDims.WF S64x4096 S4096x11008 S64x11008 [1] [0] [0] [1] [] []

variable [Facts₀]

def dot_S11008x16_S16x4096_S11008x4096_1_0_0_1_n_n : DotDims S11008x16 S16x4096 S11008x4096 where
  lhsContracting := [1]
  rhsContracting := [0]
  lhsNonContracting := [0]
  rhsNonContracting := [1]
  lhsBatch := []
  rhsBatch := []
  wf := dot_S11008x16_S16x4096_S11008x4096_1_0_0_1_n_n_wf
def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf

class Facts : Prop extends Facts₀ where

variable [Facts]
-- ==== Proof.WordBody.lean ====
/-
  One grid point of the kernel, as a function of what its seven staging buffers hold.

  The body reads the activation tile `x` (64 x 4096), the low-rank activation `xa` (64 x 16), a
  512-row tile of the weight `W` (512 x 4096), the matching 512 entries of the per-channel scale
  (1 x 512), a 512-row tile of `B` (512 x 16) and 512 entries of the bias (1 x 512), each through
  the whole of its buffer, and stores into the whole of the result's buffer (64 x 512) the tile

      (x · Wᵀ) ∘ scale  +  (xa · Bᵀ) · 1  +  bias

  (`tile` below: the printed arithmetic as one pure term of the six values read). Nothing else is
  written: the six input buffers end as they began. This holds for any interpretation of the
  floating-point operations, so it is stated once for all of them.
-/
import proofs.«141276_j74388833567052_2_alg».proof.Proof.Gen.Kernel.Launch
import proofs.«141276_j74388833567052_2_alg».proof.Proof.Gen.Kernel.Skeleton
import proofs.«141276_j74388833567052_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S64x4096 := Rect.unit (s := S64x4096) ![0, 0] S64x4096.size inb_S64x4096_S64x4096_0_0
abbrev rXa : Rect S64x16 := Rect.unit (s := S64x16) ![0, 0] S64x16.size inb_S64x16_S64x16_0_0
abbrev rW : Rect S512x4096 := Rect.unit (s := S512x4096) ![0, 0] S512x4096.size inb_S512x4096_S512x4096_0_0
abbrev rRow : Rect S1x512 := Rect.unit (s := S1x512) ![0, 0] S1x512.size inb_S1x512_S1x512_0_0
abbrev rB : Rect S512x16 := Rect.unit (s := S512x16) ![0, 0] S512x16.size inb_S512x16_S512x16_0_0
abbrev rOut : Rect S64x512 := Rect.unit (s := S64x512) ![0, 0] S64x512.size inb_S64x512_S64x512_0_0

/-- Offset zero on both axes. -/
theorem off_zero : (![0, 0] : Fin 2 → Nat) = fun _ => 0 := funext fun a => by fin_cases a <;> rfl

/-! ## The tile the body stores -/

/-- The result tile of one grid point, from the contents of the six input buffers: activation,
    low-rank activation, weight tile, scale entries, `B` tile, bias entries. -/
def tile (x : Vec F S64x4096 .bf16) (xa : Vec F S64x16 .bf16) (w : Vec F S512x4096 .f32) (s : Vec F S1x512 .f32)
    (b : Vec F S512x16 .f32) (bias : Vec F S1x512 .f32) : Vec F S64x512 .f32 :=
  k0_pay1 x xa w b s bias

/-- The one store, as the list of pieces the result's buffer is assembled from. -/
def stored (x : Vec F S64x4096 .bf16) (xa : Vec F S64x16 .bf16) (w : Vec F S512x4096 .f32) (s : Vec F S1x512 .f32)
    (b : Vec F S512x16 .f32) (bias : Vec F S1x512 .f32) : List (View.Piece (Elt F) S64x512 .f32) :=
  [⟨rOut, k0_pay1 (View.ld x rX) (View.ld xa rXa) (View.ld w rW) (View.ld b rB) (View.ld s rRow) (View.ld bias rRow)⟩]

/-- The store goes through the whole buffer, so it covers it. -/
theorem stored_cover (p : Vec F S64x512 .f32) (y : S64x512.Idx) :
    ∃ pc ∈ ([⟨rOut, p⟩] : List (View.Piece (Elt F) S64x512 .f32)), y ∈ pc.1.set :=
  View.cover_of_tiled [⟨rOut, p⟩] S64x512.size (by rfl) y

/-- What the buffer then holds is the tile: a read through a whole buffer is its contents, and the
    one whole store leaves its payload. -/
theorem canon_stored (x : Vec F S64x4096 .bf16) (xa : Vec F S64x16 .bf16) (w : Vec F S512x4096 .f32) (s : Vec F S1x512 .f32)
    (b : Vec F S512x16 .f32) (bias : Vec F S1x512 .f32) :
    View.canon (stored x xa w s b bias) = tile x xa w s b bias := by
  unfold stored tile
  rw [View.canon_unit_zero off_zero]
  simp only [View.ld_unit_zero (S := S64x4096) off_zero, View.ld_unit_zero (S := S64x16) off_zero,
    View.ld_unit_zero (S := S512x4096) off_zero, View.ld_unit_zero (S := S512x16) off_zero,
    View.ld_unit_zero (S := S1x512) off_zero]

/-! ## The body's triple -/

set_option maxHeartbeats 2000000 in
/-- The kernel body on whole staging buffers — the six inputs' at contents `x … bias`, the result's at
    anything — runs to the end with the inputs' buffers as they were and the result's holding `tile`. -/
theorem sound_kernel (c : Dev nD) (E : Set ℕ) (i : grid0.Coords)
    (arg1 : Memref sig .tc .vmem S64x4096 .bf16) (harg1 : arg1.IsWhole) (arg2 : Memref sig .tc .vmem S64x16 .bf16) (harg2 : arg2.IsWhole)
    (arg3 : Memref sig .tc .vmem S512x4096 .f32) (harg3 : arg3.IsWhole) (arg4 : Memref sig .tc .vmem S1x512 .f32) (harg4 : arg4.IsWhole)
    (arg5 : Memref sig .tc .vmem S512x16 .f32) (harg5 : arg5.IsWhole) (arg6 : Memref sig .tc .vmem S1x512 .f32) (harg6 : arg6.IsWhole)
    (arg7 : Memref sig .tc .vmem S64x512 .f32) (harg7 : arg7.IsWhole)
    (x : Vec F S64x4096 .bf16) (xa : Vec F S64x16 .bf16) (w : Vec F S512x4096 .f32) (s : Vec F S1x512 .f32)
    (b : Vec F S512x16 .f32) (bias : Vec F S1x512 .f32) (K : PUnit → sProp 𝕄) :
    iprop(owns (c : Thread nD τ) arg1 fullShare x ∗ owns (c : Thread nD τ) arg2 fullShare xa ∗ owns (c : Thread nD τ) arg3 fullShare w
        ∗ owns (c : Thread nD τ) arg4 fullShare s ∗ owns (c : Thread nD τ) arg5 fullShare b ∗ owns (c : Thread nD τ) arg6 fullShare bias
        ∗ (∃ d, owns (c : Thread nD τ) arg7 fullShare d)
        ∗ (iprop(owns (c : Thread nD τ) arg1 fullShare x ∗ owns (c : Thread nD τ) arg2 fullShare xa ∗ owns (c : Thread nD τ) arg3 fullShare w
            ∗ owns (c : Thread nD τ) arg4 fullShare s ∗ owns (c : Thread nD τ) arg5 fullShare b ∗ owns (c : Thread nD τ) arg6 fullShare bias
            ∗ owns (c : Thread nD τ) arg7 fullShare (tile x xa w s b bias)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [← canon_stored]
  exact View.read_writes_eq_canon _ _ _ (stored_cover _)

end Cert.Kernel.Gen

end
-- ==== Proof.WordFrame.lean ====
/-
  The word-level kernel runs to the end and leaves its six argument arrays as it found them.

  The grid has 22 points; at point `t` the pipeline fetches rows `512 t ‥ 512 t + 511` of the weight
  and of `B`, and entries `512 t ‥ 512 t + 511` of the scale and bias rows. 11008 = 21 · 512 + 256, so the
  last block of each overhangs its array by 256 rows (entries): there the fetch fills only the leading
  256 and the rest of the staging buffer holds words nothing names. The body reads those words too, and
  at the word level a matrix product is a function of its whole operands, so what the body stores in the
  result's staging buffer cannot be named without them. The frame does not need it named: the proof data
  below forgets the result window, states each clipped input's buffer on the fetched part only, and the
  run concludes that every input array ends at its contents on entry.
-/
import proofs.«141276_j74388833567052_2_alg».proof.Proof.WordBody
import proofs.«141276_j74388833567052_2_alg».proof.Proof.Gen.Kernel.Frame
import Idealize.ShloMosaic.Lib.Pipeline.Frame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The window whose contents the frame never reads: the result's. -/
def forgets : Fin 7 → Bool := fun w => w.val == 6

/-- A clipped input's staging buffer after the body: its block on the fetched part; this word elsewhere
    (the obligation states nothing there). -/
abbrev pad {S : Shape} : S.Idx → Elt F .f32 := fun _ => Scalar.ofBits .f32 0#32

/-- On core `c`: the arrays as the region finds them; after the body at point `t` the two unclipped inputs'
    buffers at their blocks, the four clipped inputs' at their blocks filled out, the result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) pad (iblk m c 2 t)
    | ⟨3, _⟩ => win0_3.fill (grid0.coords t) pad (iblk m c 3 t)
    | ⟨4, _⟩ => win0_4.fill (grid0.coords t) pad (iblk m c 4 t)
    | ⟨5, _⟩ => win0_5.fill (grid0.coords t) pad (iblk m c 5 t)
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = win0_2.fill (grid0.coords t) pad (iblk m c 2 t) := by dsimp only [dats]
theorem after0_3 (c : Dev nD) (t : Fin cfg0.N) :
    (dats m 0 c).after 3 t = win0_3.fill (grid0.coords t) pad (iblk m c 3 t) := by dsimp only [dats]
theorem after0_4 (c : Dev nD) (t : Fin cfg0.N) :
    (dats m 0 c).after 4 t = win0_4.fill (grid0.coords t) pad (iblk m c 4 t) := by dsimp only [dats]
theorem after0_5 (c : Dev nD) (t : Fin cfg0.N) :
    (dats m 0 c).after 5 t = win0_5.fill (grid0.coords t) pad (iblk m c 5 t) := by dsimp only [dats]

/-- The activation and the low-rank activation are fetched once and stay: at every point their buffers hold
    their (only) block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The four clipped inputs are fetched at every point: the buffer holds the block on the fetched part and
    whatever it held, `d`, elsewhere. -/
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]
theorem before0_4 (c : Dev nD) (t : Fin cfg0.N) (d) :
    (dats m 0 c).before 4 t d = win0_4.fill (grid0.coords t) d (iblk m c 4 t) := by
  unfold Dat.before; rw [if_pos (fetch0_4 t)]; unfold Dat.fetched Dat.blockOf iblk; rw [A_eq]
theorem before0_5 (c : Dev nD) (t : Fin cfg0.N) (d) :
    (dats m 0 c).before 5 t d = win0_5.fill (grid0.coords t) d (iblk m c 5 t) := by
  unfold Dat.before; rw [if_pos (fetch0_5 t)]; unfold Dat.fetched Dat.blockOf iblk; rw [A_eq]

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t))))
    ∗ (∃ X, owns (c : Thread nD τ) (st0_6 t) fullShare X))

/-- The body at any point: each input's buffer holds its block (filled out, for the clipped ones, by what was
    there), so the body's triple applies; each input buffer is handed back as it came, which on the fetched
    part is the block; the result's buffer is handed back at whatever the body stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5,
    win0_2.cut_fill, win0_3.cut_fill, win0_4.cut_fill, win0_5.cut_fill]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t)
    (win0_2.fill (grid0.coords t) d2 (iblk m c 2 t)) (win0_3.fill (grid0.coords t) d3 (iblk m c 3 t))
    (win0_4.fill (grid0.coords t) d4 (iblk m c 4 t)) (win0_5.fill (grid0.coords t) d5 (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  isplitl [H5]; · iexists d5; iexact H5
  iexists _; iexact H6

/-- The library's body obligation at every point, the result window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates without a fault; every input array of the pipeline ends at
    its entry contents, and every other unscoped buffer as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the six argument arrays end as launched. The weight and `B` are staged inputs of the pipeline
    (never written); the other four arguments are read only by the host operations before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
      (Eq.mp (congrFun (((dats m 0 c).toRForget forgets).ArrAt_in 2 rfl _) _) ((h c).1 2)).trans ((A_eq m c 2).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Eq.mp (congrFun (((dats m 0 c).toRForget forgets).ArrAt_in 4 rfl _) _) ((h c).1 4)).trans ((A_eq m c 4).trans (V_main_arg4 m c)),
      ((h c).2 main_arg5 (Pipeline.mem_restRefs_of main_arg5 (by decide) (by decide))).trans (V_main_arg5 m c)⟩) (run_main m ρ)

end Cert.Kernel.Gen

end
-- ==== Proof.IdealBody.lean ====
/-
  One grid point of the kernel, as a function of what its seven staging buffers hold.

  The body reads the activation tile `x` (64 x 4096), the low-rank activation `xa` (64 x 16), a
  512-row tile of the weight `W` (512 x 4096), the matching 512 entries of the per-channel scale
  (1 x 512), a 512-row tile of `B` (512 x 16) and 512 entries of the bias (1 x 512), each through
  the whole of its buffer, and stores into the whole of the result's buffer (64 x 512) the tile

      (x · Wᵀ) ∘ scale  +  (xa · Bᵀ) · 1  +  bias

  (`tile` below: the printed arithmetic as one pure term of the six values read). Nothing else is
  written: the six input buffers end as they began. This holds for any interpretation of the
  floating-point operations, so it is stated once for all of them.
-/
import proofs.«141276_j74388833567052_2_alg».proof.Proof.Gen.KernelIdeal.Launch
import proofs.«141276_j74388833567052_2_alg».proof.Proof.Gen.KernelIdeal.Skeleton
import proofs.«141276_j74388833567052_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S64x4096 := Rect.unit (s := S64x4096) ![0, 0] S64x4096.size inb_S64x4096_S64x4096_0_0
abbrev rXa : Rect S64x16 := Rect.unit (s := S64x16) ![0, 0] S64x16.size inb_S64x16_S64x16_0_0
abbrev rW : Rect S512x4096 := Rect.unit (s := S512x4096) ![0, 0] S512x4096.size inb_S512x4096_S512x4096_0_0
abbrev rRow : Rect S1x512 := Rect.unit (s := S1x512) ![0, 0] S1x512.size inb_S1x512_S1x512_0_0
abbrev rB : Rect S512x16 := Rect.unit (s := S512x16) ![0, 0] S512x16.size inb_S512x16_S512x16_0_0
abbrev rOut : Rect S64x512 := Rect.unit (s := S64x512) ![0, 0] S64x512.size inb_S64x512_S64x512_0_0

/-- Offset zero on both axes. -/
theorem off_zero : (![0, 0] : Fin 2 → Nat) = fun _ => 0 := funext fun a => by fin_cases a <;> rfl

/-! ## The tile the body stores -/

/-- The result tile of one grid point, from the contents of the six input buffers: activation,
    low-rank activation, weight tile, scale entries, `B` tile, bias entries. -/
def tile (x : Vec F S64x4096 .bf16) (xa : Vec F S64x16 .bf16) (w : Vec F S512x4096 .f32) (s : Vec F S1x512 .f32)
    (b : Vec F S512x16 .f32) (bias : Vec F S1x512 .f32) : Vec F S64x512 .f32 :=
  k0_pay1 x xa w b s bias

/-- The one store, as the list of pieces the result's buffer is assembled from. -/
def stored (x : Vec F S64x4096 .bf16) (xa : Vec F S64x16 .bf16) (w : Vec F S512x4096 .f32) (s : Vec F S1x512 .f32)
    (b : Vec F S512x16 .f32) (bias : Vec F S1x512 .f32) : List (View.Piece (Elt F) S64x512 .f32) :=
  [⟨rOut, k0_pay1 (View.ld x rX) (View.ld xa rXa) (View.ld w rW) (View.ld b rB) (View.ld s rRow) (View.ld bias rRow)⟩]

/-- The store goes through the whole buffer, so it covers it. -/
theorem stored_cover (p : Vec F S64x512 .f32) (y : S64x512.Idx) :
    ∃ pc ∈ ([⟨rOut, p⟩] : List (View.Piece (Elt F) S64x512 .f32)), y ∈ pc.1.set :=
  View.cover_of_tiled [⟨rOut, p⟩] S64x512.size (by rfl) y

/-- What the buffer then holds is the tile: a read through a whole buffer is its contents, and the
    one whole store leaves its payload. -/
theorem canon_stored (x : Vec F S64x4096 .bf16) (xa : Vec F S64x16 .bf16) (w : Vec F S512x4096 .f32) (s : Vec F S1x512 .f32)
    (b : Vec F S512x16 .f32) (bias : Vec F S1x512 .f32) :
    View.canon (stored x xa w s b bias) = tile x xa w s b bias := by
  unfold stored tile
  rw [View.canon_unit_zero off_zero]
  simp only [View.ld_unit_zero (S := S64x4096) off_zero, View.ld_unit_zero (S := S64x16) off_zero,
    View.ld_unit_zero (S := S512x4096) off_zero, View.ld_unit_zero (S := S512x16) off_zero,
    View.ld_unit_zero (S := S1x512) off_zero]

/-! ## The body's triple -/

set_option maxHeartbeats 2000000 in
/-- The kernel body on whole staging buffers — the six inputs' at contents `x … bias`, the result's at
    anything — runs to the end with the inputs' buffers as they were and the result's holding `tile`. -/
theorem sound_kernel (c : Dev nD) (E : Set ℕ) (i : grid0.Coords)
    (arg1 : Memref sig .tc .vmem S64x4096 .bf16) (harg1 : arg1.IsWhole) (arg2 : Memref sig .tc .vmem S64x16 .bf16) (harg2 : arg2.IsWhole)
    (arg3 : Memref sig .tc .vmem S512x4096 .f32) (harg3 : arg3.IsWhole) (arg4 : Memref sig .tc .vmem S1x512 .f32) (harg4 : arg4.IsWhole)
    (arg5 : Memref sig .tc .vmem S512x16 .f32) (harg5 : arg5.IsWhole) (arg6 : Memref sig .tc .vmem S1x512 .f32) (harg6 : arg6.IsWhole)
    (arg7 : Memref sig .tc .vmem S64x512 .f32) (harg7 : arg7.IsWhole)
    (x : Vec F S64x4096 .bf16) (xa : Vec F S64x16 .bf16) (w : Vec F S512x4096 .f32) (s : Vec F S1x512 .f32)
    (b : Vec F S512x16 .f32) (bias : Vec F S1x512 .f32) (K : PUnit → sProp 𝕄) :
    iprop(owns (c : Thread nD τ) arg1 fullShare x ∗ owns (c : Thread nD τ) arg2 fullShare xa ∗ owns (c : Thread nD τ) arg3 fullShare w
        ∗ owns (c : Thread nD τ) arg4 fullShare s ∗ owns (c : Thread nD τ) arg5 fullShare b ∗ owns (c : Thread nD τ) arg6 fullShare bias
        ∗ (∃ d, owns (c : Thread nD τ) arg7 fullShare d)
        ∗ (iprop(owns (c : Thread nD τ) arg1 fullShare x ∗ owns (c : Thread nD τ) arg2 fullShare xa ∗ owns (c : Thread nD τ) arg3 fullShare w
            ∗ owns (c : Thread nD τ) arg4 fullShare s ∗ owns (c : Thread nD τ) arg5 fullShare b ∗ owns (c : Thread nD τ) arg6 fullShare bias
            ∗ owns (c : Thread nD τ) arg7 fullShare (tile x xa w s b bias)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [← canon_stored]
  exact View.read_writes_eq_canon _ _ _ (stored_cover _)

end Cert.KernelIdeal.Gen

end
-- ==== Proof.Spec.lean ====
/-
  The linear layer with a per-channel scale and a low-rank correction, entry by entry, in the two
  arrangements the two programs compute it in, and the law that joins them.

  For an activation row `x` (indexed by the input features `k`), a weight row `W`, its channel's scale
  `s`, the low-rank factors `A` (rank × features) and `B` (one row, indexed by the rank `r`), and the
  channel's bias:

    scale after the product (`entryAfter`):   (Σ_k x_k W_k) · s + (Σ_r (Σ_k x_k A_rk) · B_r) · 1 + bias
    scale inside the product (`entryInside`): Σ_k x_k · (W_k · s + (Σ_r B_r A_rk) · 1) + bias

  Over the reals these agree: distribute `x_k` over the inner sum, pull `s` out of the first sum and
  exchange the two summations in the second. On the extended reals distributivity fails at the
  infinities, so the law is stated for entries that are real numbers, which is what the programs'
  precondition gives.
-/
import Idealize.ShloMosaic.PureOps.Ideal
import Idealize.ShloMosaic.PureOps.Ideal.Laws
import Idealize.ShloMosaic.Lib.ValueIdx

noncomputable section

namespace Cert.QLinear

open Idealize.ShloMosaic Idealize.ShloMosaic.ValueIdx

/-- The literal both programs multiply the low-rank term by (the ratio alpha / rank = 16 / 16). -/
abbrev one : EReal := Ideal.ofBits .f32 0x3F800000#32

/-- It denotes the real number 1. -/
theorem one_eq : one = 1 := by
  unfold one
  simp [Ideal.ofBits, Ideal.ieee, -EReal.coe_mul]; norm_num

section Entry

variable {K R : Type} [Fintype K] [Fintype R]

/-- One output entry with the scale applied after the product and the low-rank term factored
    through the rank-sized activation. -/
def entryAfter (x W : K → EReal) (s : EReal) (A : R → K → EReal) (B : R → EReal) (bias : EReal) : EReal :=
  (∑ k, x k * W k) * s + (∑ r, (∑ k, x k * A r k) * B r) * one + bias

/-- The same entry with the effective weight formed first. -/
def entryInside (x W : K → EReal) (s : EReal) (A : R → K → EReal) (B : R → EReal) (bias : EReal) : EReal :=
  (∑ k, x k * (W k * s + (∑ r, B r * A r k) * one)) + bias

/-- A finite sum of reals, read in the extended reals, is the sum of the readings. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The law over the reals. -/
theorem real_law (x W : K → ℝ) (s : ℝ) (A : R → K → ℝ) (B : R → ℝ) :
    (∑ k, x k * W k) * s + (∑ r, (∑ k, x k * A r k) * B r) = ∑ k, x k * (W k * s + ∑ r, B r * A r k) := by
  simp only [mul_add, Finset.sum_add_distrib, Finset.sum_mul, Finset.mul_sum]
  congr 1
  · exact Finset.sum_congr rfl fun k _ => by ring
  · rw [Finset.sum_comm]
    exact Finset.sum_congr rfl fun k _ => Finset.sum_congr rfl fun r _ => by ring

/-- The two arrangements agree when every entry involved is a real number. -/
theorem entryAfter_eq_entryInside (x W : K → EReal) (s : EReal) (A : R → K → EReal) (B : R → EReal) (bias : EReal)
    (hx : ∀ k, ∃ a : ℝ, x k = a) (hW : ∀ k, ∃ a : ℝ, W k = a) (hs : ∃ a : ℝ, s = a)
    (hA : ∀ r k, ∃ a : ℝ, A r k = a) (hB : ∀ r, ∃ a : ℝ, B r = a) :
    entryAfter x W s A B bias = entryInside x W s A B bias := by
  choose x' hx using hx
  choose W' hW using hW
  obtain ⟨s', rfl⟩ := hs
  choose A' hA using hA
  choose B' hB using hB
  unfold entryAfter entryInside
  simp only [hx, hW, hA, hB, one_eq, mul_one]
  simp only [← EReal.coe_mul, ← coe_sum, ← EReal.coe_add]
  rw [real_law]

end Entry

/-! ## The result array, in the two arrangements -/

/-- The row and the column of an index into a matrix, as numbers below the matrix's literal bounds. -/
abbrev row {n0 n1 : Nat} (i : (⟨2, ![n0, n1]⟩ : Shape).Idx) : Fin n0 := ⟨(i 0).val, (i 0).isLt⟩
abbrev col {n0 n1 : Nat} (i : (⟨2, ![n0, n1]⟩ : Shape).Idx) : Fin n1 := ⟨(i 1).val, (i 1).isLt⟩

/-- The result with the scale after the product: entry (t, n) from row `t` of the activation, row `n` of the
    weight and of `B`, and entry `n` of the scale and the bias. -/
def resultAfter (x : (⟨2, ![64, 4096]⟩ : Shape).Idx → EReal) (W : (⟨2, ![11008, 4096]⟩ : Shape).Idx → EReal)
    (s : (⟨1, ![11008]⟩ : Shape).Idx → EReal) (A : (⟨2, ![16, 4096]⟩ : Shape).Idx → EReal)
    (B : (⟨2, ![11008, 16]⟩ : Shape).Idx → EReal) (bias : (⟨1, ![11008]⟩ : Shape).Idx → EReal) :
    (⟨2, ![64, 11008]⟩ : Shape).Idx → EReal := fun i =>
  entryAfter (fun k : Fin 4096 => x (ix2 (row i) k)) (fun k : Fin 4096 => W (ix2 (col i) k)) (s (ix1 (col i)))
    (fun (r : Fin 16) (k : Fin 4096) => A (ix2 r k)) (fun r : Fin 16 => B (ix2 (col i) r)) (bias (ix1 (col i)))

/-- The result with the effective weight formed first. -/
def resultInside (x : (⟨2, ![64, 4096]⟩ : Shape).Idx → EReal) (W : (⟨2, ![11008, 4096]⟩ : Shape).Idx → EReal)
    (s : (⟨1, ![11008]⟩ : Shape).Idx → EReal) (A : (⟨2, ![16, 4096]⟩ : Shape).Idx → EReal)
    (B : (⟨2, ![11008, 16]⟩ : Shape).Idx → EReal) (bias : (⟨1, ![11008]⟩ : Shape).Idx → EReal) :
    (⟨2, ![64, 11008]⟩ : Shape).Idx → EReal := fun i =>
  entryInside (fun k : Fin 4096 => x (ix2 (row i) k)) (fun k : Fin 4096 => W (ix2 (col i) k)) (s (ix1 (col i)))
    (fun (r : Fin 16) (k : Fin 4096) => A (ix2 r k)) (fun r : Fin 16 => B (ix2 (col i) r)) (bias (ix1 (col i)))

/-- On arrays of real numbers the two results are one array. -/
theorem resultAfter_eq_resultInside (x : (⟨2, ![64, 4096]⟩ : Shape).Idx → EReal) (W : (⟨2, ![11008, 4096]⟩ : Shape).Idx → EReal)
    (s : (⟨1, ![11008]⟩ : Shape).Idx → EReal) (A : (⟨2, ![16, 4096]⟩ : Shape).Idx → EReal)
    (B : (⟨2, ![11008, 16]⟩ : Shape).Idx → EReal) (bias : (⟨1, ![11008]⟩ : Shape).Idx → EReal)
    (hx : ∀ i, ∃ a : ℝ, x i = a) (hW : ∀ i, ∃ a : ℝ, W i = a) (hs : ∀ i, ∃ a : ℝ, s i = a)
    (hA : ∀ i, ∃ a : ℝ, A i = a) (hB : ∀ i, ∃ a : ℝ, B i = a) :
    resultAfter x W s A B bias = resultInside x W s A B bias := by
  funext i
  exact entryAfter_eq_entryInside _ _ _ _ _ _ (fun _ => hx _) (fun _ => hW _) (hs _) (fun _ _ => hA _) (fun _ => hB _)

end Cert.QLinear

end
-- ==== Proof.TileEntry.lean ====
/-
  The tile one grid point stores, read at an entry, on the extended reals.

  Entry (i, n) of the 64 x 512 tile is

      (Σ_k x(i,k) · w(n,k)) · s(0,n) + (Σ_r xa(i,r) · b(n,r)) · 1 + bias(0,n):

  the two matrix products contract the trailing axis of both operands (into a zero accumulator, so each
  is the plain sum), a change of float format is the identity, and the scale and bias rows are
  broadcast down the 64 rows. So the entry depends on row `n` of the weight tile and of the `B` tile and on
  entry `n` of the scale and bias rows only (`tile_congr`): what the buffers hold in other rows does not
  matter to it.
-/
import proofs.«141276_j74388833567052_2_alg».proof.Proof.IdealBody
import proofs.«141276_j74388833567052_2_alg».proof.Proof.Spec
import Idealize.ShloMosaic.Lib.Pipeline.Value
import Idealize.ShloMosaic.Lib.ValueIdx
import Idealize.ShloMosaic.PureOps.Ideal.Laws

noncomputable section

namespace Cert.KernelIdeal.TileValue

open Cert.KernelIdeal Cert.KernelIdeal.Gen Idealize.ShloMosaic Idealize.ShloMosaic.ValueIdx

/-! ## The matrix products at an entry -/

local notation "dotW" => dot_S64x4096_S512x4096_S64x512_1_1_0_0_n_n
local notation "dotB" => dot_S64x16_S512x16_S64x512_1_1_0_0_n_n

theorem dotW_lhs0 (j : S64x512.Idx) (q : (dot_S64x4096_S512x4096_S64x512_1_1_0_0_n_n).contr.Idx) :
    ((dot_S64x4096_S512x4096_S64x512_1_1_0_0_n_n).lhsIdx j q 0).val = (j 0).val := by
  unfold DotDims.lhsIdx
  rw [dif_neg (show ¬(0 : Fin S64x4096.rank) ∈ (dot_S64x4096_S512x4096_S64x512_1_1_0_0_n_n).lhsBatch by decide),
    dif_pos (show (0 : Fin S64x4096.rank) ∈ (dot_S64x4096_S512x4096_S64x512_1_1_0_0_n_n).lhsNonContracting by decide)]
  rfl
theorem dotW_lhs1 (j : S64x512.Idx) (q : (dot_S64x4096_S512x4096_S64x512_1_1_0_0_n_n).contr.Idx) :
    ((dot_S64x4096_S512x4096_S64x512_1_1_0_0_n_n).lhsIdx j q 1).val = (q ⟨0, by decide⟩).val :=
  (dot_S64x4096_S512x4096_S64x512_1_1_0_0_n_n).lhsIdx_val_of_single rfl j q
theorem dotW_rhs0 (j : S64x512.Idx) (q : (dot_S64x4096_S512x4096_S64x512_1_1_0_0_n_n).contr.Idx) :
    ((dot_S64x4096_S512x4096_S64x512_1_1_0_0_n_n).rhsIdx j q 0).val = (j 1).val := by
  unfold DotDims.rhsIdx
  rw [dif_neg (show ¬(0 : Fin S512x4096.rank) ∈ (dot_S64x4096_S512x4096_S64x512_1_1_0_0_n_n).rhsBatch by decide),
    dif_pos (show (0 : Fin S512x4096.rank) ∈ (dot_S64x4096_S512x4096_S64x512_1_1_0_0_n_n).rhsNonContracting by decide)]
  rfl
theorem dotW_rhs1 (j : S64x512.Idx) (q : (dot_S64x4096_S512x4096_S64x512_1_1_0_0_n_n).contr.Idx) :
    ((dot_S64x4096_S512x4096_S64x512_1_1_0_0_n_n).rhsIdx j q 1).val = (q ⟨0, by decide⟩).val :=
  (dot_S64x4096_S512x4096_S64x512_1_1_0_0_n_n).rhsIdx_val_of_single rfl j q

/-- The product with the weight tile: row `i` of the activation against row `n` of the tile. -/
theorem weightProduct_apply (x : FVec Ideal S64x4096 .bf16) (w : FVec Ideal S512x4096 .bf16) (i : Fin 64) (n : Fin 512) :
    FloatOps.matmul (F := Ideal) dot_S64x4096_S512x4096_S64x512_1_1_0_0_n_n none x w (constant (F := Ideal) S64x512 .f32 0x00000000#32) (ix2 i n)
      = ∑ k : Fin 4096, x (ix2 i k) * w (ix2 n k) := by
  rw [Ideal.matmul_constant_zero_apply, ← Equiv.sum_comp (contrEquiv1 dot_S64x4096_S512x4096_S64x512_1_1_0_0_n_n 4096 rfl rfl).symm]
  refine Finset.sum_congr rfl fun k _ => ?_
  have hk := contrEquiv1_symm_val dot_S64x4096_S512x4096_S64x512_1_1_0_0_n_n 4096 rfl rfl k
  have el : (dot_S64x4096_S512x4096_S64x512_1_1_0_0_n_n).lhsIdx (ix2 i n) ((contrEquiv1 dot_S64x4096_S512x4096_S64x512_1_1_0_0_n_n 4096 rfl rfl).symm k) = ix2 i k :=
    funext fun a => Fin.ext (by
      match a with
      | ⟨0, _⟩ => exact dotW_lhs0 _ _
      | ⟨1, _⟩ => exact (dotW_lhs1 _ _).trans hk)
  have er : (dot_S64x4096_S512x4096_S64x512_1_1_0_0_n_n).rhsIdx (ix2 i n) ((contrEquiv1 dot_S64x4096_S512x4096_S64x512_1_1_0_0_n_n 4096 rfl rfl).symm k) = ix2 n k :=
    funext fun a => Fin.ext (by
      match a with
      | ⟨0, _⟩ => exact dotW_rhs0 _ _
      | ⟨1, _⟩ => exact (dotW_rhs1 _ _).trans hk)
  rw [el, er]

theorem dotB_lhs0 (j : S64x512.Idx) (q : (dot_S64x16_S512x16_S64x512_1_1_0_0_n_n).contr.Idx) :
    ((dot_S64x16_S512x16_S64x512_1_1_0_0_n_n).lhsIdx j q 0).val = (j 0).val := by
  unfold DotDims.lhsIdx
  rw [dif_neg (show ¬(0 : Fin S64x16.rank) ∈ (dot_S64x16_S512x16_S64x512_1_1_0_0_n_n).lhsBatch by decide),
    dif_pos (show (0 : Fin S64x16.rank) ∈ (dot_S64x16_S512x16_S64x512_1_1_0_0_n_n).lhsNonContracting by decide)]
  rfl
theorem dotB_lhs1 (j : S64x512.Idx) (q : (dot_S64x16_S512x16_S64x512_1_1_0_0_n_n).contr.Idx) :
    ((dot_S64x16_S512x16_S64x512_1_1_0_0_n_n).lhsIdx j q 1).val = (q ⟨0, by decide⟩).val :=
  (dot_S64x16_S512x16_S64x512_1_1_0_0_n_n).lhsIdx_val_of_single rfl j q
theorem dotB_rhs0 (j : S64x512.Idx) (q : (dot_S64x16_S512x16_S64x512_1_1_0_0_n_n).contr.Idx) :
    ((dot_S64x16_S512x16_S64x512_1_1_0_0_n_n).rhsIdx j q 0).val = (j 1).val := by
  unfold DotDims.rhsIdx
  rw [dif_neg (show ¬(0 : Fin S512x16.rank) ∈ (dot_S64x16_S512x16_S64x512_1_1_0_0_n_n).rhsBatch by decide),
    dif_pos (show (0 : Fin S512x16.rank) ∈ (dot_S64x16_S512x16_S64x512_1_1_0_0_n_n).rhsNonContracting by decide)]
  rfl
theorem dotB_rhs1 (j : S64x512.Idx) (q : (dot_S64x16_S512x16_S64x512_1_1_0_0_n_n).contr.Idx) :
    ((dot_S64x16_S512x16_S64x512_1_1_0_0_n_n).rhsIdx j q 1).val = (q ⟨0, by decide⟩).val :=
  (dot_S64x16_S512x16_S64x512_1_1_0_0_n_n).rhsIdx_val_of_single rfl j q

/-- The product with the `B` tile: row `i` of the low-rank activation against row `n` of the tile. -/
theorem lowRankProduct_apply (xa : FVec Ideal S64x16 .bf16) (b : FVec Ideal S512x16 .bf16) (i : Fin 64) (n : Fin 512) :
    FloatOps.matmul (F := Ideal) dot_S64x16_S512x16_S64x512_1_1_0_0_n_n none xa b (constant (F := Ideal) S64x512 .f32 0x00000000#32) (ix2 i n)
      = ∑ r : Fin 16, xa (ix2 i r) * b (ix2 n r) := by
  rw [Ideal.matmul_constant_zero_apply, ← Equiv.sum_comp (contrEquiv1 dot_S64x16_S512x16_S64x512_1_1_0_0_n_n 16 rfl rfl).symm]
  refine Finset.sum_congr rfl fun k _ => ?_
  have hk := contrEquiv1_symm_val dot_S64x16_S512x16_S64x512_1_1_0_0_n_n 16 rfl rfl k
  have el : (dot_S64x16_S512x16_S64x512_1_1_0_0_n_n).lhsIdx (ix2 i n) ((contrEquiv1 dot_S64x16_S512x16_S64x512_1_1_0_0_n_n 16 rfl rfl).symm k) = ix2 i k :=
    funext fun a => Fin.ext (by
      match a with
      | ⟨0, _⟩ => exact dotB_lhs0 _ _
      | ⟨1, _⟩ => exact (dotB_lhs1 _ _).trans hk)
  have er : (dot_S64x16_S512x16_S64x512_1_1_0_0_n_n).rhsIdx (ix2 i n) ((contrEquiv1 dot_S64x16_S512x16_S64x512_1_1_0_0_n_n 16 rfl rfl).symm k) = ix2 n k :=
    funext fun a => Fin.ext (by
      match a with
      | ⟨0, _⟩ => exact dotB_rhs0 _ _
      | ⟨1, _⟩ => exact (dotB_rhs1 _ _).trans hk)
  rw [el, er]

/-! ## A row broadcast down the tile -/

/-- A 1 x 512 row broadcast to 64 x 512, read at (i, n), is the row's entry `n`. -/
theorem rowBroadcast_apply (v : FVec Ideal S1x512 .f32) (hc : S1x512.ShapeCasts S1x512) (hb : S1x512.Broadcasts S64x512)
    (i : Fin 64) (n : Fin 512) :
    broadcastTo S64x512 (shapeCast S1x512 v hc) hb (ix2 i n) = v (ix2 (0 : Fin 1) n) := by
  rw [shapeCast_self]
  exact broadcastTo_apply v hb (ix2 i n) (ix2 (0 : Fin 1) n) (fun a => match a with
    | ⟨0, _⟩ => by show (0 : Nat) = if (1 : Nat) = 1 then 0 else _; rw [if_pos rfl]
    | ⟨1, _⟩ => by show n.val = if (512 : Nat) = 1 then 0 else n.val; rw [if_neg (by decide)])

/-! ## The tile at an entry -/

/-- Entry (i, n) of the tile. -/
theorem tile_apply (x : FVec Ideal S64x4096 .bf16) (xa : FVec Ideal S64x16 .bf16) (w : FVec Ideal S512x4096 .f32)
    (s : FVec Ideal S1x512 .f32) (b : FVec Ideal S512x16 .f32) (bias : FVec Ideal S1x512 .f32) (i : Fin 64) (n : Fin 512) :
    tile (F := Ideal) x xa w s b bias (ix2 i n)
      = (∑ k : Fin 4096, x (ix2 i k) * w (ix2 n k)) * s (ix2 (0 : Fin 1) n)
        + (∑ r : Fin 16, xa (ix2 i r) * b (ix2 n r)) * Cert.QLinear.one + bias (ix2 (0 : Fin 1) n) := by
  unfold tile k0_pay1
  refine congrArg₂ (· + ·) (congrArg₂ (· + ·) (congrArg₂ (· * ·) ?_ ?_) (congrArg₂ (· * ·) ?_ ?_)) ?_
  · refine (weightProduct_apply _ _ i n).trans (Finset.sum_congr rfl fun k _ => ?_)
    rw [shapeCast_self]; rfl
  · exact rowBroadcast_apply s _ _ i n
  · refine (lowRankProduct_apply _ _ i n).trans (Finset.sum_congr rfl fun r _ => ?_)
    rw [shapeCast_self]; rfl
  · rfl
  · exact rowBroadcast_apply bias _ _ i n

/-- The entry depends on row `n` of the weight and `B` tiles and entry `n` of the two rows only. -/
theorem tile_congr (x : FVec Ideal S64x4096 .bf16) (xa : FVec Ideal S64x16 .bf16) (w w' : FVec Ideal S512x4096 .f32)
    (s s' : FVec Ideal S1x512 .f32) (b b' : FVec Ideal S512x16 .f32) (bias bias' : FVec Ideal S1x512 .f32) (i : Fin 64) (n : Fin 512)
    (hw : ∀ k : Fin 4096, w (ix2 n k) = w' (ix2 n k)) (hs : s (ix2 (0 : Fin 1) n) = s' (ix2 (0 : Fin 1) n))
    (hb : ∀ r : Fin 16, b (ix2 n r) = b' (ix2 n r)) (hbias : bias (ix2 (0 : Fin 1) n) = bias' (ix2 (0 : Fin 1) n)) :
    tile (F := Ideal) x xa w s b bias (ix2 i n) = tile (F := Ideal) x xa w' s' b' bias' (ix2 i n) := by
  rw [tile_apply, tile_apply, hs, hbias]
  simp only [hw, hb]

end Cert.KernelIdeal.TileValue

end
-- ==== Proof.IdealFrame.lean ====
/-
  The idealized kernel's run, with what every array holds afterwards.

  The grid has 22 points; at point `t` the pipeline fetches rows `512 t ‥` of the weight and of `B` and
  entries `512 t ‥` of the scale and bias rows, 512 of each except at the last point, where the arrays
  end after 256 (11008 = 21 · 512 + 256) and the rest of each staging buffer holds words nothing names.
  The body reads those words too, but on the extended reals entry (i, n) of the tile it stores depends
  only on row `n` of the two tiles and entry `n` of the two rows, and the write-back at point `t` moves only
  the columns `n` inside the array — the same range on which the four inputs were fetched. So the part of
  the tile that is written back is the same whatever the unnamed words are: the proof data names the
  result's buffer as the tile of the blocks filled out with a fixed word, and the obligation is met on the
  part that moves.
-/
import proofs.«141276_j74388833567052_2_alg».proof.Proof.TileEntry
import proofs.«141276_j74388833567052_2_alg».proof.Proof.Gen.KernelIdeal.Frame
import Idealize.ShloMosaic.Lib.Pipeline.Frame

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.TileValue

local notation "𝕄" => MT nD τ sig Unit (Elt Ideal) ℕ (UR sig nD τ) ℕ

variable (m : (ℓ : Loc nD τ sig) → Buf (Elt Ideal) ℓ) (ρ : Dev nD → PrngReg)

/-! ## How much of each block moves -/

/-- At every grid point the four clipped inputs are cut exactly as the result is: the weight and `B` tiles
    on their rows, the scale and bias rows on their entries, by the number of result columns inside the
    array; nothing is cut on the other axis. -/
theorem moved_sizes : ∀ t : Fin cfg0.N,
    win0_2.xsize (grid0.coords t) 0 = win0_6.xsize (grid0.coords t) 1 ∧ win0_2.xsize (grid0.coords t) 1 = 4096
    ∧ win0_3.xsize (grid0.coords t) 0 = 1 ∧ win0_3.xsize (grid0.coords t) 1 = win0_6.xsize (grid0.coords t) 1
    ∧ win0_4.xsize (grid0.coords t) 0 = win0_6.xsize (grid0.coords t) 1 ∧ win0_4.xsize (grid0.coords t) 1 = 16
    ∧ win0_5.xsize (grid0.coords t) 0 = 1 ∧ win0_5.xsize (grid0.coords t) 1 = win0_6.xsize (grid0.coords t) 1
    ∧ win0_6.xsize (grid0.coords t) 0 = 64 :=
  (by decide +kernel : ∀ t : Fin grid0.N, _)

/-- Where the transfer moves an index, what was in the buffer before does not matter. -/
theorem fill_irrel {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-! ## The proof data -/

/-- A clipped input's staging buffer after the body: its block on the fetched part; this word elsewhere. -/
abbrev pad {S : Shape} : S.Idx → Elt Ideal .f32 := fun _ => FloatOps.ofBits (F := Ideal) .f32 0#32

/-- The result tile of point `t`, from the blocks as the region finds them. -/
def tileAt (c : Dev nD) (t : Fin cfg0.N) : S64x512.Idx → Elt Ideal .f32 :=
  tile (F := Ideal) (iblk m c 0 t) (iblk m c 1 t) (win0_2.fill (grid0.coords t) pad (iblk m c 2 t))
    (win0_3.fill (grid0.coords t) pad (iblk m c 3 t)) (win0_4.fill (grid0.coords t) pad (iblk m c 4 t))
    (win0_5.fill (grid0.coords t) pad (iblk m c 5 t))

/-- On core `c`: the arrays as the region finds them; after the body at point `t` the two unclipped inputs'
    buffers at their blocks, the four clipped inputs' at their blocks filled out, the result's at `tileAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) pad (iblk m c 2 t)
    | ⟨3, _⟩ => win0_3.fill (grid0.coords t) pad (iblk m c 3 t)
    | ⟨4, _⟩ => win0_4.fill (grid0.coords t) pad (iblk m c 4 t)
    | ⟨5, _⟩ => win0_5.fill (grid0.coords t) pad (iblk m c 5 t)
    | ⟨6, _⟩ => tileAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = win0_2.fill (grid0.coords t) pad (iblk m c 2 t) := by dsimp only [dats]
theorem after0_3 (c : Dev nD) (t : Fin cfg0.N) :
    (dats m 0 c).after 3 t = win0_3.fill (grid0.coords t) pad (iblk m c 3 t) := by dsimp only [dats]
theorem after0_4 (c : Dev nD) (t : Fin cfg0.N) :
    (dats m 0 c).after 4 t = win0_4.fill (grid0.coords t) pad (iblk m c 4 t) := by dsimp only [dats]
theorem after0_5 (c : Dev nD) (t : Fin cfg0.N) :
    (dats m 0 c).after 5 t = win0_5.fill (grid0.coords t) pad (iblk m c 5 t) := by dsimp only [dats]
theorem after0_6 (c : Dev nD) (t : Fin cfg0.N) : (dats m 0 c).after 6 t = tileAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]
theorem before0_4 (c : Dev nD) (t : Fin cfg0.N) (d) :
    (dats m 0 c).before 4 t d = win0_4.fill (grid0.coords t) d (iblk m c 4 t) := by
  unfold Dat.before; rw [if_pos (fetch0_4 t)]; unfold Dat.fetched Dat.blockOf iblk; rw [A_eq]
theorem before0_5 (c : Dev nD) (t : Fin cfg0.N) (d) :
    (dats m 0 c).before 5 t d = win0_5.fill (grid0.coords t) d (iblk m c 5 t) := by
  unfold Dat.before; rw [if_pos (fetch0_5 t)]; unfold Dat.fetched Dat.blockOf iblk; rw [A_eq]
/-- The result is written back at every point, so its buffer arrives holding anything. -/
theorem before0_6 (c : Dev nD) (t : Fin cfg0.N) (d) : (dats m 0 c).before 6 t d = d :=
  (dats m 0 c).before_out_reset 6 rfl t (by
    by_cases h0 : t.val = 0
    · exact .inl h0
    · exact .inr ⟨h0, flush0_6 _⟩) d

/-! ## The part of the tile that moves does not see the unnamed words -/

/-- The columns of the result tile that the write-back at `t` moves are the same whatever the four clipped
    input buffers held outside what was fetched. -/
theorem tile_cut_irrel (t : Fin cfg0.N) (x : FVec Ideal S64x4096 .bf16) (xa : FVec Ideal S64x16 .bf16)
    (g2 : (win0_2.xblock (grid0.coords t)).Idx → Elt Ideal .f32) (g3 : (win0_3.xblock (grid0.coords t)).Idx → Elt Ideal .f32)
    (g4 : (win0_4.xblock (grid0.coords t)).Idx → Elt Ideal .f32) (g5 : (win0_5.xblock (grid0.coords t)).Idx → Elt Ideal .f32)
    (d2 d2' : S512x4096.Idx → Elt Ideal .f32) (d3 d3' : S1x512.Idx → Elt Ideal .f32)
    (d4 d4' : S512x16.Idx → Elt Ideal .f32) (d5 d5' : S1x512.Idx → Elt Ideal .f32) :
    win0_6.cut (grid0.coords t) (tile (F := Ideal) x xa (win0_2.fill (grid0.coords t) d2 g2) (win0_3.fill (grid0.coords t) d3 g3)
        (win0_4.fill (grid0.coords t) d4 g4) (win0_5.fill (grid0.coords t) d5 g5))
      = win0_6.cut (grid0.coords t) (tile (F := Ideal) x xa (win0_2.fill (grid0.coords t) d2' g2) (win0_3.fill (grid0.coords t) d3' g3)
        (win0_4.fill (grid0.coords t) d4' g4) (win0_5.fill (grid0.coords t) d5' g5)) := by
  obtain ⟨e20, e21, e30, e31, e40, e41, e50, e51, e60⟩ := moved_sizes t
  funext j
  have hj0 : (j 0).val < win0_6.xsize (grid0.coords t) 0 := (j 0).isLt
  have hj1 : (j 1).val < win0_6.xsize (grid0.coords t) 1 := (j 1).isLt
  have hn : (j 1).val < 512 := Nat.lt_of_lt_of_le hj1 (win0_6.xsize_le (grid0.coords t) 1)
  have hi : (j 0).val < 64 := by rw [e60] at hj0; exact hj0
  have ej : win0_6.xinj (grid0.coords t) j = ix2 (⟨(j 0).val, hi⟩ : Fin 64) (⟨(j 1).val, hn⟩ : Fin 512) :=
    funext fun a => Fin.ext (by match a with | ⟨0, _⟩ => rfl | ⟨1, _⟩ => rfl)
  show tile (F := Ideal) _ _ _ _ _ _ (win0_6.xinj (grid0.coords t) j) = tile (F := Ideal) _ _ _ _ _ _ (win0_6.xinj (grid0.coords t) j)
  rw [ej]
  refine tile_congr x xa _ _ _ _ _ _ _ _ _ _ (fun k => ?_) ?_ (fun r => ?_) ?_
  · refine fill_irrel win0_2 _ _ _ _ _ ((win0_2.moved_iff _ _).mpr fun a => ?_)
    match a with
    | ⟨0, _⟩ => show (j 1).val < win0_2.xsize (grid0.coords t) 0; rw [e20]; exact hj1
    | ⟨1, _⟩ => show k.val < win0_2.xsize (grid0.coords t) 1; rw [e21]; exact k.isLt
  · refine fill_irrel win0_3 _ _ _ _ _ ((win0_3.moved_iff _ _).mpr fun a => ?_)
    match a with
    | ⟨0, _⟩ => show 0 < win0_3.xsize (grid0.coords t) 0; rw [e30]; exact Nat.one_pos
    | ⟨1, _⟩ => show (j 1).val < win0_3.xsize (grid0.coords t) 1; rw [e31]; exact hj1
  · refine fill_irrel win0_4 _ _ _ _ _ ((win0_4.moved_iff _ _).mpr fun a => ?_)
    match a with
    | ⟨0, _⟩ => show (j 1).val < win0_4.xsize (grid0.coords t) 0; rw [e40]; exact hj1
    | ⟨1, _⟩ => show r.val < win0_4.xsize (grid0.coords t) 1; rw [e41]; exact r.isLt
  · refine fill_irrel win0_5 _ _ _ _ _ ((win0_5.moved_iff _ _).mpr fun a => ?_)
    match a with
    | ⟨0, _⟩ => show 0 < win0_5.xsize (grid0.coords t) 0; rw [e50]; exact Nat.one_pos
    | ⟨1, _⟩ => show (j 1).val < win0_5.xsize (grid0.coords t) 1; rw [e51]; exact hj1

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t))))
    ∗ (∃ d, owns (c : Thread nD τ) (st0_6 t) fullShare (win0_6.fill (grid0.coords t) d (win0_6.cut (grid0.coords t) ((dats m 0 c).after 6 t)))))

/-- The body at any point. Each input buffer is handed back as it came, which on the fetched part is the
    block; the result's buffer holds the tile of what the inputs' buffers held, which on the part the
    write-back moves is `tileAt` (`tile_cut_irrel`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    win0_2.cut_fill, win0_3.cut_fill, win0_4.cut_fill, win0_5.cut_fill]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t)
    (win0_2.fill (grid0.coords t) d2 (iblk m c 2 t)) (win0_3.fill (grid0.coords t) d3 (iblk m c 3 t))
    (win0_4.fill (grid0.coords t) d4 (iblk m c 4 t)) (win0_5.fill (grid0.coords t) d5 (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  isplitl [H5]; · iexists d5; iexact H5
  iexists (tile (F := Ideal) (iblk m c 0 t) (iblk m c 1 t) (win0_2.fill (grid0.coords t) d2 (iblk m c 2 t))
    (win0_3.fill (grid0.coords t) d3 (iblk m c 3 t)) (win0_4.fill (grid0.coords t) d4 (iblk m c 4 t))
    (win0_5.fill (grid0.coords t) d5 (iblk m c 5 t)))
  rw [win0_6.fill_congr_cut (grid0.coords t) (by unfold tileAt; exact tile_cut_irrel t _ _ _ _ _ _ _ _ _ _ _ _ _ _)]
  iexact H6

/-- The library's body obligation at every point. -/
theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates without a fault; every array of the pipeline ends at what
    the write-backs of the proof data make of it, every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the six argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen

end
-- ==== Proof.IdealValue.lean ====
/-
  What the idealized kernel's result array holds after the run: `resultAfter` of the six arguments.

  Before the region, @main casts the activation (the identity on the extended reals), forms the low-rank
  activation `xa(i,r) = Σ_k x(i,k) · A(r,k)` (a product with the transposed `A`), and views the scale and the
  bias as 1 x 11008 rows. At grid point `t` the pipeline hands the body the whole activation and low-rank
  activation, rows `512 t + n` of the weight and of `B`, and entries `512 t + n` of the two rows, for the `n`
  inside the arrays; the body's tile at (i, n) is therefore entry (i, 512 t + n) of `resultAfter`, and the
  write-back puts it there. Column `N` of the result is written by point `N / 512`: the 22 blocks cover the
  array (the last one with its 256 columns), so the array ends holding `resultAfter`.
-/
import proofs.«141276_j74388833567052_2_alg».proof.Proof.IdealFrame
import Idealize.ShloMosaic.Lib.StableHlo.Run
import Idealize.ShloMosaic.Lib.Pipeline.Value

set_option maxRecDepth 16384

noncomputable section

namespace Cert.KernelIdeal.KernelValue

open Cert.KernelIdeal Cert.KernelIdeal.Gen Cert.KernelIdeal.TileValue Idealize.ShloMosaic Idealize.ShloMosaic.TcCoe
open Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The six argument arrays, and the result to be shown -/

abbrev argX (c : Dev nD) : FVec Ideal S64x4096 .f32 := m ((c : Thread nD τ).loc main_arg0)
abbrev argW (c : Dev nD) : FVec Ideal S11008x4096 .f32 := m ((c : Thread nD τ).loc main_arg1)
abbrev argS (c : Dev nD) : FVec Ideal S11008 .f32 := m ((c : Thread nD τ).loc main_arg2)
abbrev argA (c : Dev nD) : FVec Ideal S16x4096 .f32 := m ((c : Thread nD τ).loc main_arg3)
abbrev argB (c : Dev nD) : FVec Ideal S11008x16 .f32 := m ((c : Thread nD τ).loc main_arg4)
abbrev argBias (c : Dev nD) : FVec Ideal S11008 .f32 := m ((c : Thread nD τ).loc main_arg5)

/-- The result array: the scale applied after the product, the low-rank term through the low-rank activation. -/
def result (c : Dev nD) : FVec Ideal S64x11008 .f32 :=
  Cert.QLinear.resultAfter (argX m c) (argW m c) (argS m c) (argA m c) (argB m c) (argBias m c)

/-! ## What the host operations before the region leave in the windows' arrays -/

theorem cast_x (c : Dev nD) : (V m c main_v0 : FVec Ideal S64x4096 .bf16) = truncf .bf16 (argX m c) bitsLt_bf16_f32 := by
  dsimp only [V, hostOps0]; after_results; try rfl

theorem lowRank_x (c : Dev nD) : (V m c main_v3 : FVec Ideal S64x16 .bf16)
    = truncf .bf16 (Host.dotGeneral (F := Ideal) dot_S64x4096_S4096x16_S64x16_1_0_0_1_n_n none (argX m c)
        (transpose S4096x16 [1, 0] (argA m c) transposes_S16x4096_S4096x16_1_0)) bitsLt_bf16_f32 := by
  dsimp only [V, hostOps0]; after_results; try rfl

theorem row_scale (c : Dev nD) : (V m c main_v4 : FVec Ideal S1x11008 .f32)
    = shapeCast S1x11008 (argS m c) shapeCasts_S11008_S1x11008 := by
  dsimp only [V, hostOps0]; after_results; try rfl

theorem row_bias (c : Dev nD) : (V m c main_v5 : FVec Ideal S1x11008 .f32)
    = shapeCast S1x11008 (argBias m c) shapeCasts_S11008_S1x11008 := by
  dsimp only [V, hostOps0]; after_results; try rfl

/-- The cast activation at an entry. -/
theorem cast_x_apply (c : Dev nD) (i : S64x4096.Idx) : V m c main_v0 i = argX m c i := by
  rw [cast_x]; rfl

/-- The scale row at an entry. -/
theorem row_scale_apply (c : Dev nD) (n : Fin 11008) : V m c main_v4 (ix2 (0 : Fin 1) n) = argS m c (ix1 n) := by
  rw [row_scale]
  exact shapeCast_apply _ _ (ix2 (0 : Fin 1) n) (ix1 n) (by
    rw [Shape.rowMajor_val_two, Shape.rowMajor_val_one]; show n.val = 0 * 11008 + n.val; omega)

/-- The bias row at an entry. -/
theorem row_bias_apply (c : Dev nD) (n : Fin 11008) : V m c main_v5 (ix2 (0 : Fin 1) n) = argBias m c (ix1 n) := by
  rw [row_bias]
  exact shapeCast_apply _ _ (ix2 (0 : Fin 1) n) (ix1 n) (by
    rw [Shape.rowMajor_val_two, Shape.rowMajor_val_one]; show n.val = 0 * 11008 + n.val; omega)

theorem dotA_lhs0 (j : S64x16.Idx) (q : (dot_S64x4096_S4096x16_S64x16_1_0_0_1_n_n).contr.Idx) :
    ((dot_S64x4096_S4096x16_S64x16_1_0_0_1_n_n).lhsIdx j q 0).val = (j 0).val := by
  unfold DotDims.lhsIdx
  rw [dif_neg (show ¬(0 : Fin S64x4096.rank) ∈ (dot_S64x4096_S4096x16_S64x16_1_0_0_1_n_n).lhsBatch by decide),
    dif_pos (show (0 : Fin S64x4096.rank) ∈ (dot_S64x4096_S4096x16_S64x16_1_0_0_1_n_n).lhsNonContracting by decide)]
  rfl
theorem dotA_lhs1 (j : S64x16.Idx) (q : (dot_S64x4096_S4096x16_S64x16_1_0_0_1_n_n).contr.Idx) :
    ((dot_S64x4096_S4096x16_S64x16_1_0_0_1_n_n).lhsIdx j q 1).val = (q ⟨0, by decide⟩).val :=
  (dot_S64x4096_S4096x16_S64x16_1_0_0_1_n_n).lhsIdx_val_of_single rfl j q
theorem dotA_rhs0 (j : S64x16.Idx) (q : (dot_S64x4096_S4096x16_S64x16_1_0_0_1_n_n).contr.Idx) :
    ((dot_S64x4096_S4096x16_S64x16_1_0_0_1_n_n).rhsIdx j q 0).val = (q ⟨0, by decide⟩).val :=
  (dot_S64x4096_S4096x16_S64x16_1_0_0_1_n_n).rhsIdx_val_of_single rfl j q
theorem dotA_rhs1 (j : S64x16.Idx) (q : (dot_S64x4096_S4096x16_S64x16_1_0_0_1_n_n).contr.Idx) :
    ((dot_S64x4096_S4096x16_S64x16_1_0_0_1_n_n).rhsIdx j q 1).val = (j 1).val := by
  unfold DotDims.rhsIdx
  rw [dif_neg (show ¬(1 : Fin S4096x16.rank) ∈ (dot_S64x4096_S4096x16_S64x16_1_0_0_1_n_n).rhsBatch by decide),
    dif_pos (show (1 : Fin S4096x16.rank) ∈ (dot_S64x4096_S4096x16_S64x16_1_0_0_1_n_n).rhsNonContracting by decide)]
  rfl

/-- The low-rank activation at an entry: row `i` of the activation against row `r` of `A`. -/
theorem lowRank_x_apply (c : Dev nD) (i : Fin 64) (r : Fin 16) :
    V m c main_v3 (ix2 i r) = ∑ k : Fin 4096, argX m c (ix2 i k) * argA m c (ix2 r k) := by
  rw [lowRank_x]
  show Host.dotGeneral (F := Ideal) dot_S64x4096_S4096x16_S64x16_1_0_0_1_n_n none (argX m c)
    (transpose S4096x16 [1, 0] (argA m c) transposes_S16x4096_S4096x16_1_0) (ix2 i r) = _
  generalize argX m c = x
  generalize argA m c = a
  simp only [Host.dotGeneral]
  rw [Ideal.dotGeneral_apply, ← Equiv.sum_comp (contrEquiv1 dot_S64x4096_S4096x16_S64x16_1_0_0_1_n_n 4096 rfl rfl).symm]
  refine Finset.sum_congr rfl fun k _ => ?_
  have hk := contrEquiv1_symm_val dot_S64x4096_S4096x16_S64x16_1_0_0_1_n_n 4096 rfl rfl k
  have el : (dot_S64x4096_S4096x16_S64x16_1_0_0_1_n_n).lhsIdx (ix2 i r) ((contrEquiv1 dot_S64x4096_S4096x16_S64x16_1_0_0_1_n_n 4096 rfl rfl).symm k) = ix2 i k :=
    funext fun b => Fin.ext (by
      match b with
      | ⟨0, _⟩ => exact dotA_lhs0 _ _
      | ⟨1, _⟩ => exact (dotA_lhs1 _ _).trans hk)
  have er : (dot_S64x4096_S4096x16_S64x16_1_0_0_1_n_n).rhsIdx (ix2 i r) ((contrEquiv1 dot_S64x4096_S4096x16_S64x16_1_0_0_1_n_n 4096 rfl rfl).symm k) = ix2 k r :=
    funext fun b => Fin.ext (by
      match b with
      | ⟨0, _⟩ => exact (dotA_rhs0 _ _).trans hk
      | ⟨1, _⟩ => exact dotA_rhs1 _ _)
  rw [el, er]
  exact congrArg (x (ix2 i k) * ·) (transpose_apply [1, 0] a transposes_S16x4096_S4096x16_1_0 (ix2 k r) (ix2 r k) (fun b => match b with
    | ⟨0, _⟩ => rfl
    | ⟨1, _⟩ => rfl))

/-! ## Where each window's block sits in its array -/

/-- The printed index maps, decided over the grid: the activation and the low-rank activation are one
    block; point `t` takes block `t` of the weight's and `B`'s rows and of the entries of the scale row, the
    bias row and the result's columns; and the result's last block has 256 columns. -/
theorem block_indices : ∀ t : Fin cfg0.N,
    win0_0.index t 0 = 0 ∧ win0_0.index t 1 = 0 ∧ win0_1.index t 0 = 0 ∧ win0_1.index t 1 = 0
    ∧ win0_2.index t 0 = t.val ∧ win0_2.index t 1 = 0 ∧ win0_3.index t 0 = 0 ∧ win0_3.index t 1 = t.val
    ∧ win0_4.index t 0 = t.val ∧ win0_4.index t 1 = 0 ∧ win0_5.index t 0 = 0 ∧ win0_5.index t 1 = t.val
    ∧ win0_6.index t 0 = 0 ∧ win0_6.index t 1 = t.val
    ∧ win0_6.xsize (grid0.coords t) 1 = min 512 (11008 - t.val * 512) :=
  (by decide +kernel : ∀ t : Fin grid0.N, _)

/-- Where the transfer moves an index, the buffer holds the fetched block there. -/
theorem fill_moved {G : Pipeline.Grid} (w : Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

/-! ## The blocks the body is handed, entry by entry -/

/-- The activation's buffer holds the activation. -/
theorem x_entry (c : Dev nD) (t : Fin cfg0.N) (i : Fin 64) (k : Fin 4096) :
    iblk m c 0 t (ix2 i k) = argX m c (ix2 i k) := by
  obtain ⟨i00, i01, -⟩ := block_indices t
  refine (congrArg (V m c main_v0) (?_ : ((cfg0.win 0).blk t).view.emb (ix2 i k) = ix2 i k)).trans (cast_x_apply m c _)
  funext a; apply Fin.ext
  match a with
  | ⟨0, _⟩ => show win0_0.index t 0 * 64 + 1 * i.val = i.val; rw [i00]; omega
  | ⟨1, _⟩ => show win0_0.index t 1 * 4096 + 1 * k.val = k.val; rw [i01]; omega

/-- The low-rank activation's buffer holds the low-rank activation. -/
theorem xa_entry (c : Dev nD) (t : Fin cfg0.N) (i : Fin 64) (r : Fin 16) :
    iblk m c 1 t (ix2 i r) = ∑ k : Fin 4096, argX m c (ix2 i k) * argA m c (ix2 r k) := by
  obtain ⟨-, -, i10, i11, -⟩ := block_indices t
  refine (congrArg (V m c main_v3) (?_ : ((cfg0.win 1).blk t).view.emb (ix2 i r) = ix2 i r)).trans (lowRank_x_apply m c i r)
  funext a; apply Fin.ext
  match a with
  | ⟨0, _⟩ => show win0_1.index t 0 * 64 + 1 * i.val = i.val; rw [i10]; omega
  | ⟨1, _⟩ => show win0_1.index t 1 * 16 + 1 * r.val = r.val; rw [i11]; omega

/-- Row `n` of the weight's buffer, for `n` inside the array, is row `512 t + n` of the weight. -/
theorem w_entry (c : Dev nD) (t : Fin cfg0.N) (n : Fin 512) (hn : n.val < win0_6.xsize (grid0.coords t) 1)
    (hN : t.val * 512 + n.val < 11008) (k : Fin 4096) :
    win0_2.fill (grid0.coords t) pad (iblk m c 2 t) (ix2 n k) = argW m c (ix2 (⟨t.val * 512 + n.val, hN⟩ : Fin 11008) k) := by
  obtain ⟨e20, e21, -⟩ := moved_sizes t
  obtain ⟨-, -, -, -, i20, i21, -⟩ := block_indices t
  rw [fill_moved win0_2 _ _ _ _ (fun a => match a with
    | ⟨0, _⟩ => by show n.val < win0_2.xsize (grid0.coords t) 0; rw [e20]; exact hn
    | ⟨1, _⟩ => by show k.val < win0_2.xsize (grid0.coords t) 1; rw [e21]; exact k.isLt)]
  refine (congrArg (V m c main_arg1) (?_ : ((cfg0.win 2).blk t).view.emb _ = ix2 (⟨t.val * 512 + n.val, hN⟩ : Fin 11008) k)).trans
    (congrFun (V_main_arg1 m c) _)
  funext a; apply Fin.ext
  match a with
  | ⟨0, _⟩ => show win0_2.index t 0 * 512 + 1 * n.val = t.val * 512 + n.val; rw [i20]; omega
  | ⟨1, _⟩ => show win0_2.index t 1 * 4096 + 1 * k.val = k.val; rw [i21]; omega

/-- Entry `n` of the scale row's buffer is entry `512 t + n` of the scale. -/
theorem s_entry (c : Dev nD) (t : Fin cfg0.N) (n : Fin 512) (hn : n.val < win0_6.xsize (grid0.coords t) 1)
    (hN : t.val * 512 + n.val < 11008) :
    win0_3.fill (grid0.coords t) pad (iblk m c 3 t) (ix2 (0 : Fin 1) n) = argS m c (ix1 (⟨t.val * 512 + n.val, hN⟩ : Fin 11008)) := by
  obtain ⟨-, -, e30, e31, -⟩ := moved_sizes t
  obtain ⟨-, -, -, -, -, -, i30, i31, -⟩ := block_indices t
  rw [fill_moved win0_3 _ _ _ _ (fun a => match a with
    | ⟨0, _⟩ => by show 0 < win0_3.xsize (grid0.coords t) 0; rw [e30]; exact Nat.one_pos
    | ⟨1, _⟩ => by show n.val < win0_3.xsize (grid0.coords t) 1; rw [e31]; exact hn)]
  refine (congrArg (V m c main_v4) (?_ : ((cfg0.win 3).blk t).view.emb _ = ix2 (0 : Fin 1) (⟨t.val * 512 + n.val, hN⟩ : Fin 11008))).trans
    (row_scale_apply m c _)
  funext a; apply Fin.ext
  match a with
  | ⟨0, _⟩ => show win0_3.index t 0 * 1 + 1 * 0 = 0; rw [i30]
  | ⟨1, _⟩ => show win0_3.index t 1 * 512 + 1 * n.val = t.val * 512 + n.val; rw [i31]; omega

/-- Row `n` of `B`'s buffer is row `512 t + n` of `B`. -/
theorem b_entry (c : Dev nD) (t : Fin cfg0.N) (n : Fin 512) (hn : n.val < win0_6.xsize (grid0.coords t) 1)
    (hN : t.val * 512 + n.val < 11008) (r : Fin 16) :
    win0_4.fill (grid0.coords t) pad (iblk m c 4 t) (ix2 n r) = argB m c (ix2 (⟨t.val * 512 + n.val, hN⟩ : Fin 11008) r) := by
  obtain ⟨-, -, -, -, e40, e41, -⟩ := moved_sizes t
  obtain ⟨-, -, -, -, -, -, -, -, i40, i41, -⟩ := block_indices t
  rw [fill_moved win0_4 _ _ _ _ (fun a => match a with
    | ⟨0, _⟩ => by show n.val < win0_4.xsize (grid0.coords t) 0; rw [e40]; exact hn
    | ⟨1, _⟩ => by show r.val < win0_4.xsize (grid0.coords t) 1; rw [e41]; exact r.isLt)]
  refine (congrArg (V m c main_arg4) (?_ : ((cfg0.win 4).blk t).view.emb _ = ix2 (⟨t.val * 512 + n.val, hN⟩ : Fin 11008) r)).trans
    (congrFun (V_main_arg4 m c) _)
  funext a; apply Fin.ext
  match a with
  | ⟨0, _⟩ => show win0_4.index t 0 * 512 + 1 * n.val = t.val * 512 + n.val; rw [i40]; omega
  | ⟨1, _⟩ => show win0_4.index t 1 * 16 + 1 * r.val = r.val; rw [i41]; omega

/-- Entry `n` of the bias row's buffer is entry `512 t + n` of the bias. -/
theorem bias_entry (c : Dev nD) (t : Fin cfg0.N) (n : Fin 512) (hn : n.val < win0_6.xsize (grid0.coords t) 1)
    (hN : t.val * 512 + n.val < 11008) :
    win0_5.fill (grid0.coords t) pad (iblk m c 5 t) (ix2 (0 : Fin 1) n) = argBias m c (ix1 (⟨t.val * 512 + n.val, hN⟩ : Fin 11008)) := by
  obtain ⟨-, -, -, -, -, -, e50, e51, -⟩ := moved_sizes t
  obtain ⟨-, -, -, -, -, -, -, -, -, -, i50, i51, -⟩ := block_indices t
  rw [fill_moved win0_5 _ _ _ _ (fun a => match a with
    | ⟨0, _⟩ => by show 0 < win0_5.xsize (grid0.coords t) 0; rw [e50]; exact Nat.one_pos
    | ⟨1, _⟩ => by show n.val < win0_5.xsize (grid0.coords t) 1; rw [e51]; exact hn)]
  refine (congrArg (V m c main_v5) (?_ : ((cfg0.win 5).blk t).view.emb _ = ix2 (0 : Fin 1) (⟨t.val * 512 + n.val, hN⟩ : Fin 11008))).trans
    (row_bias_apply m c _)
  funext a; apply Fin.ext
  match a with
  | ⟨0, _⟩ => show win0_5.index t 0 * 1 + 1 * 0 = 0; rw [i50]
  | ⟨1, _⟩ => show win0_5.index t 1 * 512 + 1 * n.val = t.val * 512 + n.val; rw [i51]; omega

/-! ## What each point writes back -/

/-- What point `t` writes back is block `t` of the result. -/
theorem flushed_is_block (c : Dev nD) (t : Fin cfg0.N) :
    (dats m 0 c).flushed 6 t = ((cfg0.win 6).blk t).view.read (Elt Ideal) (result m c) := by
  show win0_6.cut (grid0.coords t) ((dats m 0 c).after 6 t) = _
  rw [after0_6]
  obtain ⟨-, -, -, -, -, -, -, -, e60⟩ := moved_sizes t
  obtain ⟨-, -, -, -, -, -, -, -, -, -, -, -, i60, i61, x61⟩ := block_indices t
  funext j
  have hj0 : (j 0).val < win0_6.xsize (grid0.coords t) 0 := (j 0).isLt
  have hj1 : (j 1).val < win0_6.xsize (grid0.coords t) 1 := (j 1).isLt
  have hn : (j 1).val < 512 := Nat.lt_of_lt_of_le hj1 (win0_6.xsize_le (grid0.coords t) 1)
  have hi : (j 0).val < 64 := by rw [e60] at hj0; exact hj0
  have hN : t.val * 512 + (j 1).val < 11008 := by rw [x61] at hj1; omega
  have ej : win0_6.xinj (grid0.coords t) j = ix2 (⟨(j 0).val, hi⟩ : Fin 64) (⟨(j 1).val, hn⟩ : Fin 512) :=
    funext fun a => Fin.ext (by match a with | ⟨0, _⟩ => rfl | ⟨1, _⟩ => rfl)
  have eN : ((cfg0.win 6).blk t).view.emb j = ix2 (⟨(j 0).val, hi⟩ : Fin 64) (⟨t.val * 512 + (j 1).val, hN⟩ : Fin 11008) := by
    funext a; apply Fin.ext
    match a with
    | ⟨0, _⟩ => show win0_6.index t 0 * 64 + 1 * (j 0).val = (j 0).val; rw [i60]; omega
    | ⟨1, _⟩ => show win0_6.index t 1 * 512 + 1 * (j 1).val = t.val * 512 + (j 1).val; rw [i61]; omega
  show tileAt m c t (win0_6.xinj (grid0.coords t) j) = result m c (((cfg0.win 6).blk t).view.emb j)
  rw [ej, eN]
  unfold tileAt
  rw [tile_apply]
  unfold result Cert.QLinear.resultAfter Cert.QLinear.entryAfter
  refine congrArg₂ (· + ·) (congrArg₂ (· + ·) (congrArg₂ (· * ·) (Finset.sum_congr rfl fun k _ => congrArg₂ (· * ·) ?_ ?_) ?_)
    (congrArg₂ (· * ·) (Finset.sum_congr rfl fun r _ => congrArg₂ (· * ·) ?_ ?_) rfl)) ?_
  · exact x_entry m c t _ k
  · exact w_entry m c t _ hj1 hN k
  · exact s_entry m c t _ hj1 hN
  · exact xa_entry m c t _ r
  · exact b_entry m c t _ hj1 hN r
  · exact bias_entry m c t _ hj1 hN

/-! ## The blocks cover the result -/

/-- An index of the result is in point `t`'s block iff each coordinate is in the block's range inside the array. -/
theorem mem_block (t : Fin cfg0.N) (i : S64x11008.Idx) :
    i ∈ ((cfg0.win 6).blk t).view.set ↔
      ∀ a : Fin 2, win0_6.index t a * S64x512.size a ≤ (i a).val ∧ (i a).val < win0_6.index t a * S64x512.size a + win0_6.xsize (grid0.coords t) a := by
  show i ∈ ((View.whole main_v6).slice (win0_6.rect t)).set ↔ _
  rw [View.set_slice_whole, Rect.mem_set_unit]
  exact Iff.rfl

/-- Column `N` is written by point `N / 512`. -/
theorem covered (i : S64x11008.Idx) : ∃ t : Fin cfg0.N, (cfg0.win 6).flush t = true ∧ i ∈ ((cfg0.win 6).blk t).view.set := by
  have hi0 : (i 0).val < 64 := (i 0).isLt
  have hi1 : (i 1).val < 11008 := (i 1).isLt
  have hN : (i 1).val / 512 < cfg0.N := by rw [show cfg0.N = 22 from N_0]; omega
  refine ⟨⟨(i 1).val / 512, hN⟩, flush0_6 _, (mem_block _ i).mpr fun a => ?_⟩
  obtain ⟨-, -, -, -, -, -, -, -, e60⟩ := moved_sizes ⟨(i 1).val / 512, hN⟩
  obtain ⟨-, -, -, -, -, -, -, -, -, -, -, -, i60, i61, x61⟩ := block_indices ⟨(i 1).val / 512, hN⟩
  match a with
  | ⟨0, _⟩ =>
    show win0_6.index ⟨(i 1).val / 512, hN⟩ 0 * 64 ≤ (i 0).val
      ∧ (i 0).val < win0_6.index ⟨(i 1).val / 512, hN⟩ 0 * 64 + win0_6.xsize (grid0.coords ⟨(i 1).val / 512, hN⟩) 0
    rw [i60, e60]; omega
  | ⟨1, _⟩ =>
    show win0_6.index ⟨(i 1).val / 512, hN⟩ 1 * 512 ≤ (i 1).val
      ∧ (i 1).val < win0_6.index ⟨(i 1).val / 512, hN⟩ 1 * 512 + win0_6.xsize (grid0.coords ⟨(i 1).val / 512, hN⟩) 1
    rw [i61, x61]
    show (i 1).val / 512 * 512 ≤ (i 1).val ∧ (i 1).val < (i 1).val / 512 * 512 + min 512 (11008 - (i 1).val / 512 * 512)
    omega

/-- The result array after the run. -/
theorem final (c : Dev nD) : (dats m 0 c).arrAt 6 cfg0.N = result m c :=
  (dats m 0 c).arrAt_eq_of_cover 6 (result m c) (fun t _ => flushed_is_block m c t) covered

/-! ## The run, read -/

/-- Every weakly fair execution of @main terminates without a fault, with the result array at `result` and the
    six arguments as launched. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).1 6).trans (final m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.KernelValue

end
-- ==== Proof.RefIsSpec.lean ====
/-
  The reference program computes the result with the effective weight formed first.

  Its last stage, read at entry (t, n) one operation at a time: the sum over the input features `k` of
  `x(t,k)` times the transposed effective weight at (k, n), which is `W(n,k) · s(n)` (the scale broadcast
  along the row) plus the low-rank product `Σ_r B(n,r) · A(r,k)` times the literal 1.0; plus `bias(n)`
  broadcast down the rows. That is `resultInside` of the six arguments.
-/
import proofs.«141276_j74388833567052_2_alg».proof.Proof.Gen.ReferenceIdeal.Read
import proofs.«141276_j74388833567052_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

theorem reference_is_inside (x0 : FVec Ideal S64x4096 .f32) (x1 : FVec Ideal S11008x4096 .f32) (x2 : FVec Ideal S11008 .f32)
    (x3 : FVec Ideal S16x4096 .f32) (x4 : FVec Ideal S11008x16 .f32) (x5 : FVec Ideal S11008 .f32) :
    val_main_v11 (F := Ideal) x0 x1 x2 x3 x4 x5 = Cert.QLinear.resultInside x0 x1 x2 x3 x4 x5 := by
  funext i
  -- the composed index functions of the stages, as rows and columns of the arguments
  have e8l : ∀ k : Fin 4096, lidx_main_v8 i k = ix2 (Cert.QLinear.row i) k := fun k =>
    funext fun a => Fin.ext (by match a with | ⟨0, _⟩ => rfl | ⟨1, _⟩ => rfl)
  have e7 : ∀ k : Fin 4096, idx_main_v7 (ridx_main_v8 i k) = ix2 (Cert.QLinear.col i) k := fun k =>
    funext fun a => Fin.ext (by match a with | ⟨0, _⟩ => rfl | ⟨1, _⟩ => rfl)
  have e01 : ∀ k : Fin 4096, idx_main_v0 (idx_main_v1 (ix2 (Cert.QLinear.col i) k)) = ix1 (Cert.QLinear.col i) := fun k =>
    funext fun a => Fin.ext (by match a with | ⟨0, _⟩ => rfl)
  have e3l : ∀ (k : Fin 4096) (r : Fin 16), lidx_main_v3 (ix2 (Cert.QLinear.col i) k) r = ix2 (Cert.QLinear.col i) r := fun k r =>
    funext fun a => Fin.ext (by match a with | ⟨0, _⟩ => rfl | ⟨1, _⟩ => rfl)
  have e3r : ∀ (k : Fin 4096) (r : Fin 16), ridx_main_v3 (ix2 (Cert.QLinear.col i) k) r = ix2 r k := fun k r =>
    funext fun a => Fin.ext (by match a with | ⟨0, _⟩ => rfl | ⟨1, _⟩ => rfl)
  have e910 : idx_main_v9 (idx_main_v10 i) = ix1 (Cert.QLinear.col i) :=
    funext fun a => Fin.ext (by match a with | ⟨0, _⟩ => rfl)
  rw [val_main_v11_apply, val_main_v8_apply, val_main_v10_apply, val_main_v9_apply, e910]
  unfold Cert.QLinear.resultInside Cert.QLinear.entryInside
  refine congrArg₂ (· + ·) (Finset.sum_congr rfl fun k _ => ?_) rfl
  rw [e8l, val_main_v7_apply, e7, val_main_v6_apply, val_main_v2_apply, val_main_v5_apply, val_main_v1_apply,
    val_main_v0_apply, e01, val_main_v3_apply, val_main_v4_apply, val_main_cst_apply]
  simp only [e3l, e3r]
  rfl

end Cert.ReferenceIdeal.RefValue

end
-- ==== Proof.Finite.lean ====
/-
  From the precondition to real numbers.

  The precondition says, of each of the six argument arrays, that every entry's absolute value is below
  +infinity. On the extended reals the absolute value of `x` is `max x (-x)`, which is +infinity exactly
  at the two infinities; so every entry is a real number.
-/
import proofs.«141276_j74388833567052_2_alg».proof.Pre_finite_inputs
import Idealize.ShloMosaic.PureOps.Ideal
import Idealize.ShloMosaic.Lib.Pipeline.Value
import Idealize.ShloMosaic.Lib.ReduceAll
import Idealize.ShloMosaic.Lib.Affine

noncomputable section

namespace Cert.FiniteInputs

open Idealize.ShloMosaic Cert.Pre_finite_inputs

/-- The comparison literal is +infinity. -/
theorem inf_literal : Ideal.ofBits .f32 0x7F800000#32 = (⊤ : EReal) := by
  simp [Ideal.ofBits, Ideal.ieee]

/-- An extended real whose absolute value is below +infinity is a real number. -/
theorem real_of_abs_lt_top (x : EReal) (h : max x (-x) < ⊤) : ∃ r : ℝ, x = r := by
  induction x using EReal.rec with
  | bot => simp at h
  | coe r => exact ⟨r, rfl⟩
  | top => simp at h

/-- The printed test at one entry. -/
theorem real_of_test (x : EReal) (h : Ideal.cmp .olt (max x (-x)) (Ideal.ofBits .f32 0x7F800000#32) = 1#1) :
    ∃ r : ℝ, x = r := by
  rw [inf_literal] at h
  refine real_of_abs_lt_top x ?_
  unfold Ideal.cmp at h
  by_contra hn
  simp [hn] at h

instance : Subsingleton S_.Idx := ⟨fun a b => funext fun d => d.elim0⟩

/-- One array's conjunct: if the reduction by `and` of the entrywise test is 1, every entry is a real. -/
theorem reals_of_all {S : Shape} {axes : List (Fin S.rank)} (a : FVec Ideal S .f32)
    (hb : S_.BroadcastsInDim S (![] : Fin 0 → Fin S.rank)) (hr : S.ReducesTo axes S_) (hu : 0 < S_.numel) (j : S_.Idx)
    (e : Host.reduce IntOp.andi (cmpf .olt (Host.absf a) (broadcastInDim S ![] hb (constant (F := Ideal) S_ .f32 0x7F800000#32)))
        (constantI S_ 1 1#1) hr hu j = 1#1) (i : S.Idx) : ∃ r : ℝ, a i = r := by
  have hi := Host.reduce_andi_all _ _ hr hu j e i
  refine real_of_test (a i) ?_
  have hc : broadcastInDim S ![] hb (constant (F := Ideal) S_ .f32 0x7F800000#32) i = Ideal.ofBits .f32 0x7F800000#32 :=
    broadcastInDim_apply _ hb _ i (fun d => d.elim0) (fun d => d.elim0)
  change Ideal.cmp .olt (max (a i) (-(a i))) (broadcastInDim S ![] hb (constant (F := Ideal) S_ .f32 0x7F800000#32) i) = 1#1 at hi
  rw [hc] at hi
  exact hi

variable [Cert.Pre_finite_inputs.Facts]

/-- All six argument arrays hold real numbers when the precondition's function is all ones. -/
theorem reals_of_pre (a0 : FVec Ideal S64x4096 .f32) (a1 : FVec Ideal S11008x4096 .f32) (a2 : FVec Ideal S11008 .f32)
    (a3 : FVec Ideal S16x4096 .f32) (a4 : FVec Ideal S11008x16 .f32) (a5 : FVec Ideal S11008 .f32)
    (h : Cert.Pre_finite_inputs.fn (F := Ideal) a0 a1 a2 a3 a4 a5 = fun _ => 1#1) :
    (∀ i, ∃ r : ℝ, a0 i = r) ∧ (∀ i, ∃ r : ℝ, a1 i = r) ∧ (∀ i, ∃ r : ℝ, a2 i = r)
      ∧ (∀ i, ∃ r : ℝ, a3 i = r) ∧ (∀ i, ∃ r : ℝ, a4 i = r) ∧ (∀ i, ∃ r : ℝ, a5 i = r) := by
  have h0 := congrFun h (fun d => d.elim0)
  dsimp only [Cert.Pre_finite_inputs.fn, Cert.Pre_finite_inputs.fn_part1] at h0
  obtain ⟨h01234, e5⟩ := IntOp.andi_eq_one.mp h0
  obtain ⟨h0123, e4⟩ := IntOp.andi_eq_one.mp h01234
  obtain ⟨h012, e3⟩ := IntOp.andi_eq_one.mp h0123
  obtain ⟨h01, e2⟩ := IntOp.andi_eq_one.mp h012
  obtain ⟨e0, e1⟩ := IntOp.andi_eq_one.mp h01
  exact ⟨reals_of_all a0 _ _ _ _ e0, reals_of_all a1 _ _ _ _ e1, reals_of_all a2 _ _ _ _ e2,
    reals_of_all a3 _ _ _ _ e3, reals_of_all a4 _ _ _ _ e4, reals_of_all a5 _ _ _ _ e5⟩

end Cert.FiniteInputs

end
-- ==== Proof.lean ====
/-
  A linear layer with a per-output-channel scale, a low-rank correction and a bias, computed two ways.

  The kernel streams the weight `W` (11008 x 4096) through 22 tiles of 512 rows (the last of 256) and, for
  64 activation rows `x`, stores

      y(t, n) = (Σ_k x(t,k) · W(n,k)) · s(n) + (Σ_r xa(t,r) · B(n,r)) · 1 + bias(n),     xa(t,r) = Σ_k x(t,k) · A(r,k),

  with the scale applied to the finished product and the low-rank term routed through the 64 x 16 activation
  `xa` that @main forms once before the grid. The reference forms the effective weight first,

      y(t, n) = Σ_k x(t,k) · (W(n,k) · s(n) + (Σ_r B(n,r) · A(r,k)) · 1) + bias(n).

  On the extended reals (every float operation exact, a change of format the identity) these are equal
  when the inputs are real numbers: distribute `x(t,k)` over the inner sum, pull `s(n)` out, and exchange
  the two summations of the low-rank term. Distributivity fails at the infinities, so the precondition —
  every input finite — is used, once, for exactly this.

  The pieces: the body of one grid point as a function of its buffers (IdealBody, WordBody); the word-level
  kernel's frame, which forgets the result window because at the word level a matrix product is a function
  of its whole operands and the last tile's buffers hold unnamed words past the arrays' end (WordFrame); the
  idealized kernel's run with the result window named, using that on the extended reals an entry of the
  tile depends on one row of each tile only (TileEntry, IdealFrame); the result array in closed form
  (IdealValue); the reference read entry by entry (RefIsSpec); the law (Spec); and finiteness (Finite).
-/
import proofs.«141276_j74388833567052_2_alg».proof.Defs
import proofs.«141276_j74388833567052_2_alg».proof.Proof.Gen.Kernel
import proofs.«141276_j74388833567052_2_alg».proof.Proof.Gen.KernelIdeal
import proofs.«141276_j74388833567052_2_alg».proof.Proof.Gen.ReferenceIdeal
import proofs.«141276_j74388833567052_2_alg».proof.Proof.Gen.Pre_finite_inputs
import proofs.«141276_j74388833567052_2_alg».proof.Proof.Gen.ReferenceIdeal.Run
import proofs.«141276_j74388833567052_2_alg».proof.Proof.Gen.ReferenceIdeal.Read
import proofs.«141276_j74388833567052_2_alg».proof.Proof.WordFrame
import proofs.«141276_j74388833567052_2_alg».proof.Proof.IdealValue
import proofs.«141276_j74388833567052_2_alg».proof.Proof.RefIsSpec
import proofs.«141276_j74388833567052_2_alg».proof.Proof.Finite
import Idealize.ShloMosaic.Adequacy
import Idealize.ShloMosaic.Init

noncomputable section

namespace Cert.Proof

open Idealize.ShloMosaic Idealize.SL.Sem

/-- The word-level kernel terminates without a fault and leaves its arguments as launched. -/
theorem frame_word : Cert.frame_Kernel := fun m ρ _ => Cert.Kernel.Gen.frame (F := Bits) m ρ

/-- So does the idealized kernel. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments, all finite, both idealized programs end with one result array:
    the kernel's is `resultAfter` of the arguments, the reference's `resultInside` of them, and on arrays of real
    numbers these are one array. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.reference_is_inside,
    (hagree c).1, (hagree c).2.1, (hagree c).2.2.1, (hagree c).2.2.2.1, (hagree c).2.2.2.2.1, (hagree c).2.2.2.2.2]
  obtain ⟨h0, h1, h2, h3, h4, h5⟩ := Cert.FiniteInputs.reals_of_pre _ _ _ _ _ _ (hpre c)
  exact (Cert.QLinear.resultAfter_eq_resultInside _ _ _ _ _ _ h0 h1 h2 h3 h4).symm

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
